-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_arg15 : FVec F S128 .f32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg11 : FVec F S128 .f32) (main_arg12 : FVec F S128 .f32) (main_arg13 : FVec F S128 .f32) (main_arg14 : FVec F S128 .f32) (main_arg15 : FVec F S128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : IVec S1600000 32) (main_arg18 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 131
  | .vmem => 52
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S100000x128, .f32⟩
  | 33 => ⟨S1x128, .f32⟩
  | 34 => ⟨S1x128, .f32⟩
  | 35 => ⟨S100000x128, .f32⟩
  | 36 => ⟨S_, .f32⟩
  | 37 => ⟨S128, .f32⟩
  | 38 => ⟨S_, .f32⟩
  | 39 => ⟨S128, .f32⟩
  | 40 => ⟨S128, .f32⟩
  | 41 => ⟨S1x128, .f32⟩
  | 42 => ⟨S100000x128, .f32⟩
  | 43 => ⟨S100000x128, .f32⟩
  | 44 => ⟨S100000x128, .f32⟩
  | 45 => ⟨S_, .f32⟩
  | 46 => ⟨S128, .f32⟩
  | 47 => ⟨S_, .f32⟩
  | 48 => ⟨S128, .f32⟩
  | 49 => ⟨S128, .f32⟩
  | 50 => ⟨S1x128, .f32⟩
  | 51 => ⟨S1x128, .f32⟩
  | 52 => ⟨S1x128, .f32⟩
  | 53 => ⟨S1x128, .f32⟩
  | 54 => ⟨S100000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S100000x128, .f32⟩
  | 69 => ⟨S1x128, .f32⟩
  | 70 => ⟨S1x128, .f32⟩
  | 71 => ⟨S100000x128, .f32⟩
  | 72 => ⟨S_, .f32⟩
  | 73 => ⟨S128, .f32⟩
  | 74 => ⟨S_, .f32⟩
  | 75 => ⟨S128, .f32⟩
  | 76 => ⟨S128, .f32⟩
  | 77 => ⟨S1x128, .f32⟩
  | 78 => ⟨S100000x128, .f32⟩
  | 79 => ⟨S100000x128, .f32⟩
  | 80 => ⟨S100000x128, .f32⟩
  | 81 => ⟨S_, .f32⟩
  | 82 => ⟨S128, .f32⟩
  | 83 => ⟨S_, .f32⟩
  | 84 => ⟨S128, .f32⟩
  | 85 => ⟨S128, .f32⟩
  | 86 => ⟨S1x128, .f32⟩
  | 87 => ⟨S1x128, .f32⟩
  | 88 => ⟨S1x128, .f32⟩
  | 89 => ⟨S1x128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S100000x128, .f32⟩
  | 105 => ⟨S1x128, .f32⟩
  | 106 => ⟨S100000x128, .f32⟩
  | 107 => ⟨S_, .f32⟩
  | 108 => ⟨S128, .f32⟩
  | 109 => ⟨S_, .f32⟩
  | 110 => ⟨S128, .f32⟩
  | 111 => ⟨S128, .f32⟩
  | 112 => ⟨S1x128, .f32⟩
  | 113 => ⟨S100000x128, .f32⟩
  | 114 => ⟨S100000x128, .f32⟩
  | 115 => ⟨S100000x128, .f32⟩
  | 116 => ⟨S_, .f32⟩
  | 117 => ⟨S128, .f32⟩
  | 118 => ⟨S_, .f32⟩
  | 119 => ⟨S128, .f32⟩
  | 120 => ⟨S128, .f32⟩
  | 121 => ⟨S1x128, .f32⟩
  | 122 => ⟨S1x128, .f32⟩
  | 123 => ⟨S1x128, .f32⟩
  | 124 => ⟨S1x128, .f32⟩
  | 125 => ⟨S100000x128, .f32⟩
  | 126 => ⟨S_, .f32⟩
  | 127 => ⟨S128, .f32⟩
  | _ => ⟨S100000x128, .f32⟩

abbrev hbmTy0_1 (i : Nat) : BufTy := match i % 128 with
  | 0 => ⟨S_, .f32⟩
  | 1 => ⟨S128, .f32⟩
  | 2 => ⟨S128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_3 : Ref sig .tc := ⟨.hbm, 45, rfl⟩
abbrev main_v21 : Ref sig .tc := ⟨.hbm, 46, rfl⟩
abbrev main_cst_4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_5 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_12 : Ref sig .tc := ⟨.hbm, 91, rfl⟩
abbrev main_v58 : Ref sig .tc := ⟨.hbm, 92, rfl⟩
abbrev main_v59 : Ref sig .tc := ⟨.hbm, 93, rfl⟩
abbrev main_c_13 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_14 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_15 : Ref sig .tc := ⟨.hbm, 107, rfl⟩
abbrev main_v71 : Ref sig .tc := ⟨.hbm, 108, rfl⟩
abbrev main_cst_16 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_17 : Ref sig .tc := ⟨.hbm, 116, rfl⟩
abbrev main_v78 : Ref sig .tc := ⟨.hbm, 117, rfl⟩
abbrev main_cst_18 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_19 : Ref sig .tc := ⟨.hbm, 126, rfl⟩
abbrev main_v86 : Ref sig .tc := ⟨.hbm, 127, rfl⟩
abbrev main_cst_20 : Ref sig .tc := ⟨.hbm, 128, rfl⟩
abbrev main_v87 : Ref sig .tc := ⟨.hbm, 129, rfl⟩
abbrev main_v88 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem5_1 : DmaSem sig := 51

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v42) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v70) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v70) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v82) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v83) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v84) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v85) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 194
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S100000x128, .f32⟩
  | 46 => ⟨S100000x128, .f32⟩
  | 47 => ⟨S100000x128, .f32⟩
  | 48 => ⟨S_, .f32⟩
  | 49 => ⟨S128, .f32⟩
  | 50 => ⟨S_, .f32⟩
  | 51 => ⟨S128, .f32⟩
  | 52 => ⟨S128, .f32⟩
  | 53 => ⟨S1x128, .f32⟩
  | 54 => ⟨S100000x128, .f32⟩
  | 55 => ⟨S100000x128, .f32⟩
  | 56 => ⟨S100000x128, .f32⟩
  | 57 => ⟨S_, .f32⟩
  | 58 => ⟨S128, .f32⟩
  | 59 => ⟨S_, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S_, .f32⟩
  | 66 => ⟨S128, .f32⟩
  | 67 => ⟨S128, .f32⟩
  | 68 => ⟨S128, .f32⟩
  | 69 => ⟨S1x128, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x128, .f32⟩
  | 87 => ⟨S_, .f32⟩
  | 88 => ⟨S100000x128, .f32⟩
  | 89 => ⟨S1600000x1, .i32⟩
  | 90 => ⟨S100000x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S100000x128, .f32⟩
  | 107 => ⟨S_, .f32⟩
  | 108 => ⟨S128, .f32⟩
  | 109 => ⟨S_, .f32⟩
  | 110 => ⟨S128, .f32⟩
  | 111 => ⟨S128, .f32⟩
  | 112 => ⟨S1x128, .f32⟩
  | 113 => ⟨S100000x128, .f32⟩
  | 114 => ⟨S100000x128, .f32⟩
  | 115 => ⟨S100000x128, .f32⟩
  | 116 => ⟨S_, .f32⟩
  | 117 => ⟨S128, .f32⟩
  | 118 => ⟨S_, .f32⟩
  | 119 => ⟨S128, .f32⟩
  | 120 => ⟨S128, .f32⟩
  | 121 => ⟨S1x128, .f32⟩
  | 122 => ⟨S100000x128, .f32⟩
  | 123 => ⟨S100000x128, .f32⟩
  | 124 => ⟨S_, .f32⟩
  | 125 => ⟨S128, .f32⟩
  | 126 => ⟨S128, .f32⟩
  | 127 => ⟨S128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S1x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x128, .f32⟩
  | 18 => ⟨S_, .f32⟩
  | 19 => ⟨S100000x128, .f32⟩
  | 20 => ⟨S1600000x1, .i32⟩
  | 21 => ⟨S100000x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S100000x128, .f32⟩
  | 31 => ⟨S_, .f32⟩
  | 32 => ⟨S128, .f32⟩
  | 33 => ⟨S_, .f32⟩
  | 34 => ⟨S128, .f32⟩
  | 35 => ⟨S128, .f32⟩
  | 36 => ⟨S1x128, .f32⟩
  | 37 => ⟨S100000x128, .f32⟩
  | 38 => ⟨S100000x128, .f32⟩
  | 39 => ⟨S100000x128, .f32⟩
  | 40 => ⟨S_, .f32⟩
  | 41 => ⟨S128, .f32⟩
  | 42 => ⟨S_, .f32⟩
  | 43 => ⟨S128, .f32⟩
  | 44 => ⟨S128, .f32⟩
  | 45 => ⟨S1x128, .f32⟩
  | 46 => ⟨S100000x128, .f32⟩
  | 47 => ⟨S100000x128, .f32⟩
  | 48 => ⟨S_, .f32⟩
  | 49 => ⟨S128, .f32⟩
  | 50 => ⟨S128, .f32⟩
  | 51 => ⟨S128, .f32⟩
  | 52 => ⟨S1x128, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S128, .f32⟩
  | 63 => ⟨S_, .f32⟩
  | 64 => ⟨S128, .f32⟩
  | 65 => ⟨S128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_call0_cst : Ref sig .tc := ⟨.hbm, 37, rfl⟩
abbrev main_call0_v0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_call1_cst : Ref sig .tc := ⟨.hbm, 44, rfl⟩
abbrev main_call1_v0 : Ref sig .tc := ⟨.hbm, 45, rfl⟩
abbrev main_v20 : Ref sig .tc := ⟨.hbm, 46, rfl⟩
abbrev main_v21 : Ref sig .tc := ⟨.hbm, 47, rfl⟩
abbrev main_cst_1 : Ref sig .tc := ⟨.hbm, 48, rfl⟩
abbrev main_v22 : Ref sig .tc := ⟨.hbm, 49, rfl⟩
abbrev main_cst_2 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_3 : Ref sig .tc := ⟨.hbm, 57, rfl⟩
abbrev main_v29 : Ref sig .tc := ⟨.hbm, 58, rfl⟩
abbrev main_cst_4 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_5 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_6 : Ref sig .tc := ⟨.hbm, 78, rfl⟩
abbrev main_v47 : Ref sig .tc := ⟨.hbm, 79, rfl⟩
abbrev main_v48 : Ref sig .tc := ⟨.hbm, 80, rfl⟩
abbrev main_c_7 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_8 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_call2_cst : Ref sig .tc := ⟨.hbm, 96, rfl⟩
abbrev main_call2_v0 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_call3_cst : Ref sig .tc := ⟨.hbm, 103, rfl⟩
abbrev main_call3_v0 : Ref sig .tc := ⟨.hbm, 104, rfl⟩
abbrev main_v67 : Ref sig .tc := ⟨.hbm, 105, rfl⟩
abbrev main_v68 : Ref sig .tc := ⟨.hbm, 106, rfl⟩
abbrev main_cst_9 : Ref sig .tc := ⟨.hbm, 107, rfl⟩
abbrev main_v69 : Ref sig .tc := ⟨.hbm, 108, rfl⟩
abbrev main_cst_10 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_11 : Ref sig .tc := ⟨.hbm, 116, rfl⟩
abbrev main_v76 : Ref sig .tc := ⟨.hbm, 117, rfl⟩
abbrev main_cst_12 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_13 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_c_14 : Ref sig .tc := ⟨.hbm, 137, rfl⟩
abbrev main_v94 : Ref sig .tc := ⟨.hbm, 138, rfl⟩
abbrev main_v95 : Ref sig .tc := ⟨.hbm, 139, rfl⟩
abbrev main_c_15 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_16 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_call4_cst : Ref sig .tc := ⟨.hbm, 155, rfl⟩
abbrev main_call4_v0 : Ref sig .tc := ⟨.hbm, 156, rfl⟩
abbrev main_v109 : Ref sig .tc := ⟨.hbm, 157, rfl⟩
abbrev main_v110 : Ref sig .tc := ⟨.hbm, 158, rfl⟩
abbrev main_cst_17 : Ref sig .tc := ⟨.hbm, 159, rfl⟩
abbrev main_v111 : Ref sig .tc := ⟨.hbm, 160, rfl⟩
abbrev main_cst_18 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_19 : Ref sig .tc := ⟨.hbm, 168, rfl⟩
abbrev main_v118 : Ref sig .tc := ⟨.hbm, 169, rfl⟩
abbrev main_cst_20 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_21 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_cst_22 : Ref sig .tc := ⟨.hbm, 189, rfl⟩
abbrev main_v136 : Ref sig .tc := ⟨.hbm, 190, rfl⟩
abbrev main_cst_23 : Ref sig .tc := ⟨.hbm, 191, rfl⟩
abbrev main_v137 : Ref sig .tc := ⟨.hbm, 192, rfl⟩
abbrev main_v138 : Ref sig .tc := ⟨.hbm, 193, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run, with its result named.

  @main is thirteen segments: seven stretches of host operations and six kernel regions between them. Running the
  segments from the launch memory leaves every buffer that is not a kernel's private staging memory at the contents the
  fold `W13` gives it (a stretch applies its operations; a region replaces its output array by what its grid
  points wrote back and keeps everything else). So the returned array `main_v88` ends at `W13 … main_v88`, and
  the argument arrays end as launched.
-/
import proofs.«125571_j31628139167863_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the returned array holds what the fold
    through the segments gives it, and every argument array is as launched. -/
theorem run_result : θ_run defs (onTc (τ := τ) (main (F := F))) ⟨m, fun _ => 0, ρ⟩ (fun r => ∀ c : Dev nD,
      r.2.mem ((c.tc : Thread nD τ).loc main_v88) = W13 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v88 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c)⟩)

end Cert.KernelIdeal.Run

end
-- ==== Proof.Layers.lean ====
/-
  The three dense stages of one round of the network, as functions of whole arrays on the extended reals,
  spelt with the host's operations over all 100000 node rows.

  * `dense x W b`      : every row `x r` goes to `x r · W + b`.
  * `relu y`           : the entrywise maximum with zero.
  * `mlp2 x res …`     : `relu (relu (x · W1 + b1) · W2 + b2) + res`, the residual added last.
  * `mlp1 x res W b`   : `relu (x · W + b) + res`.
  * `bnorm h μ v g β`  : `(h - μ) · (v + ε)^(-1/2) · g + β`, the four vectors laid over all rows, the factors
                          multiplied in this order.
-/
import proofs.«125571_j31628139167863_1_alg».proof.Proof.Gen.ReferenceIdeal
import Idealize.ShloMosaic.PureOps.Ideal

noncomputable section

namespace Cert.Layers

open Idealize.ShloMosaic Cert.ReferenceIdeal Cert.ReferenceIdeal.Facts₀

/-- A vector of 128 lanes laid over all rows. -/
def overRows (v : FVec Ideal S128 .f32) : FVec Ideal S100000x128 .f32 :=
  broadcastInDim S100000x128 ![0, 1] bcast_S1x128_S100000x128_0_1 (broadcastInDim S1x128 ![1] bcast_S128_S1x128_1 v)

/-- The entrywise maximum with zero. -/
def relu (y : FVec Ideal S100000x128 .f32) : FVec Ideal S100000x128 .f32 :=
  maximumf y (broadcastInDim S100000x128 ![] bcast_S_S100000x128 (constant (F := Ideal) S_ .f32 0x00000000#32))

/-- One dense layer over all rows: `x · W + b`. -/
def dense (x : FVec Ideal S100000x128 .f32) (W : FVec Ideal S128x128 .f32) (b : FVec Ideal S128 .f32) :
    FVec Ideal S100000x128 .f32 :=
  addf (Host.dotGeneral dot_S100000x128_S128x128_S100000x128_1_0_0_1_n_n none x W) (overRows b)

/-- Two dense layers, each followed by the maximum with zero, then the residual. -/
def mlp2 (x res : FVec Ideal S100000x128 .f32) (W1 : FVec Ideal S128x128 .f32) (b1 : FVec Ideal S128 .f32)
    (W2 : FVec Ideal S128x128 .f32) (b2 : FVec Ideal S128 .f32) : FVec Ideal S100000x128 .f32 :=
  addf (relu (dense (relu (dense x W1 b1)) W2 b2)) res

/-- One dense layer followed by the maximum with zero, then the residual. -/
def mlp1 (x res : FVec Ideal S100000x128 .f32) (W : FVec Ideal S128x128 .f32) (b : FVec Ideal S128 .f32) :
    FVec Ideal S100000x128 .f32 :=
  addf (relu (dense x W b)) res

/-- The reciprocal square root of the variance plus ε, lane by lane. -/
def invStd (var : FVec Ideal S128 .f32) : FVec Ideal S128 .f32 :=
  Host.rsqrt (addf var (broadcastInDim S128 ![] bcast_S_S128 (constant (F := Ideal) S_ .f32 0x3727C5AC#32)))

/-- The normalisation with given statistics: `((h - μ) · invStd v) · g + β`. -/
def bnorm (h : FVec Ideal S100000x128 .f32) (mean var g be : FVec Ideal S128 .f32) : FVec Ideal S100000x128 .f32 :=
  addf (mulf (mulf (subf h (overRows mean)) (overRows (invStd var))) (overRows g)) (overRows be)

end Cert.Layers

end
-- ==== Proof.RefRounds.lean ====
/-
  The reference program's stages, read as the layers of the network.

  The reference computes each round with host operations over all rows at once: the aggregate (neighbour sum plus
  the node's own features), the perceptron with its residual, the batch statistics, the normalisation. Each of
  the stage terms below is, by unfolding the stages one operation at a time, the corresponding whole-array
  function of `Layers` applied to earlier stages and argument arrays.
-/
import proofs.«125571_j31628139167863_1_alg».proof.Proof.RefRead
import proofs.«125571_j31628139167863_1_alg».proof.Proof.Layers

set_option maxRecDepth 8192

noncomputable section

namespace Cert.ReferenceIdeal.Rounds

open Idealize.ShloMosaic Cert.ReferenceIdeal Cert.ReferenceIdeal.ReadP Cert.Layers

variable (x0 : FVec Ideal S100000x128 .f32) (x1 : FVec Ideal S128x128 .f32) (x2 : FVec Ideal S128 .f32) (x3 : FVec Ideal S128x128 .f32) (x4 : FVec Ideal S128 .f32) (x5 : FVec Ideal S128x128 .f32) (x6 : FVec Ideal S128 .f32) (x7 : FVec Ideal S128x128 .f32) (x8 : FVec Ideal S128 .f32) (x9 : FVec Ideal S128x128 .f32) (x10 : FVec Ideal S128 .f32) (x11 : FVec Ideal S128 .f32) (x12 : FVec Ideal S128 .f32) (x13 : FVec Ideal S128 .f32) (x14 : FVec Ideal S128 .f32) (x15 : FVec Ideal S128 .f32) (x16 : FVec Ideal S128 .f32) (x17 : (⟨S1600000, .i32⟩ : BufTy).Contents (Elt Ideal)) (x18 : (⟨S1600000, .i32⟩ : BufTy).Contents (Elt Ideal))

/-- Round 0 before normalisation: the two-layer perceptron of the aggregate, plus the input features. -/
theorem pre0 : val_main_v21 (F := Ideal) x0 x1 x2 x3 x4 x17 x18 = mlp2 (val_main_v10 (F := Ideal) x0 x17 x18) x0 x1 x2 x3 x4 := rfl

/-- Round 0 normalised with its own batch mean and variance. -/
theorem norm0 : val_main_v46 (F := Ideal) x0 x1 x2 x3 x4 x11 x12 x17 x18 = bnorm (val_main_v21 (F := Ideal) x0 x1 x2 x3 x4 x17 x18) (val_main_v24 (F := Ideal) x0 x1 x2 x3 x4 x17 x18) (val_main_v31 (F := Ideal) x0 x1 x2 x3 x4 x17 x18) x11 x12 := rfl

/-- Round 1 before normalisation. -/
theorem pre1 : val_main_v68 (F := Ideal) x0 x1 x2 x3 x4 x5 x6 x7 x8 x11 x12 x17 x18 = mlp2 (val_main_v57 (F := Ideal) x0 x1 x2 x3 x4 x11 x12 x17 x18) (val_main_v46 (F := Ideal) x0 x1 x2 x3 x4 x11 x12 x17 x18) x5 x6 x7 x8 := rfl

/-- Round 1 normalised. -/
theorem norm1 : val_main_v93 (F := Ideal) x0 x1 x2 x3 x4 x5 x6 x7 x8 x11 x12 x13 x14 x17 x18 = bnorm (val_main_v68 (F := Ideal) x0 x1 x2 x3 x4 x5 x6 x7 x8 x11 x12 x17 x18) (val_main_v71 (F := Ideal) x0 x1 x2 x3 x4 x5 x6 x7 x8 x11 x12 x17 x18) (val_main_v78 (F := Ideal) x0 x1 x2 x3 x4 x5 x6 x7 x8 x11 x12 x17 x18) x13 x14 := rfl

/-- Round 2 before normalisation: one dense layer, plus the previous round's features. -/
theorem pre2 : val_main_v110 (F := Ideal) x0 x1 x2 x3 x4 x5 x6 x7 x8 x9 x10 x11 x12 x13 x14 x17 x18 = mlp1 (val_main_v104 (F := Ideal) x0 x1 x2 x3 x4 x5 x6 x7 x8 x11 x12 x13 x14 x17 x18) (val_main_v93 (F := Ideal) x0 x1 x2 x3 x4 x5 x6 x7 x8 x11 x12 x13 x14 x17 x18) x9 x10 := rfl

/-- Round 2 normalised. -/
theorem norm2 : val_main_v135 (F := Ideal) x0 x1 x2 x3 x4 x5 x6 x7 x8 x9 x10 x11 x12 x13 x14 x15 x16 x17 x18 = bnorm (val_main_v110 (F := Ideal) x0 x1 x2 x3 x4 x5 x6 x7 x8 x9 x10 x11 x12 x13 x14 x17 x18) (val_main_v113 (F := Ideal) x0 x1 x2 x3 x4 x5 x6 x7 x8 x9 x10 x11 x12 x13 x14 x17 x18) (val_main_v120 (F := Ideal) x0 x1 x2 x3 x4 x5 x6 x7 x8 x9 x10 x11 x12 x13 x14 x17 x18) x15 x16 := rfl

end Cert.ReferenceIdeal.Rounds

end
-- ==== Proof.Kept.lean ====
/-
  Buffers the segments leave alone.

  A stretch of host operations changes only the buffers its operations write, and a kernel region only its own
  output array. So an argument array read at a later segment boundary is the launch memory's, and a region's
  output read after the next stretch is still what the region left.
-/
import proofs.«125571_j31628139167863_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

theorem W1_main_arg0 : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W1_main_arg1 : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W1_main_arg3 : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W2_main_arg11 : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W2_main_arg12 : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W4_main_arg17 : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

theorem W4_main_arg18 : W4 m ρ c (Proc.devRef .tc main_arg18) = m ((c : Thread nD τ).loc main_arg18) :=
  calc W4 m ρ c (Proc.devRef .tc main_arg18)
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

theorem W4_main_arg6 : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg8 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W5_main_arg5 : W5 m ρ c (Proc.devRef .tc main_arg5) = m ((c : Thread nD τ).loc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W5_main_arg7 : W5 m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W6_main_arg13 : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W6_main_arg14 : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W8_main_arg17 : W8 m ρ c (Proc.devRef .tc main_arg17) = m ((c : Thread nD τ).loc main_arg17) :=
  calc W8 m ρ c (Proc.devRef .tc main_arg17)
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

theorem W8_main_arg18 : W8 m ρ c (Proc.devRef .tc main_arg18) = m ((c : Thread nD τ).loc main_arg18) :=
  calc W8 m ρ c (Proc.devRef .tc main_arg18)
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

theorem W8_main_arg10 : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W9_main_arg9 : W9 m ρ c (Proc.devRef .tc main_arg9) = m ((c : Thread nD τ).loc main_arg9) :=
  calc W9 m ρ c (Proc.devRef .tc main_arg9)
    _ = W8 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W10_main_arg15 : W10 m ρ c (Proc.devRef .tc main_arg15) = m ((c : Thread nD τ).loc main_arg15) :=
  calc W10 m ρ c (Proc.devRef .tc main_arg15)
    _ = W9 m ρ c (Proc.devRef .tc main_arg15) := W10_of_ne m ρ c main_arg15 (by decide)
    _ = W8 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem W10_main_arg16 : W10 m ρ c (Proc.devRef .tc main_arg16) = m ((c : Thread nD τ).loc main_arg16) :=
  calc W10 m ρ c (Proc.devRef .tc main_arg16)
    _ = W9 m ρ c (Proc.devRef .tc main_arg16) := W10_of_ne m ρ c main_arg16 (by decide)
    _ = W8 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem W3_main_v13 : W3 m ρ c (Proc.devRef .tc main_v13) = W2 m ρ c (Proc.devRef .tc main_v13) :=
  calc W3 m ρ c (Proc.devRef .tc main_v13)
    _ = W2 m ρ c (Proc.devRef .tc main_v13) := StableHlo.after_of_forall_not_mem (b := Proc.devRef .tc main_v13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W5_main_v28 : W5 m ρ c (Proc.devRef .tc main_v28) = W4 m ρ c (Proc.devRef .tc main_v28) :=
  calc W5 m ρ c (Proc.devRef .tc main_v28)
    _ = W4 m ρ c (Proc.devRef .tc main_v28) := StableHlo.after_of_forall_not_mem (b := Proc.devRef .tc main_v28) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W7_main_v42 : W7 m ρ c (Proc.devRef .tc main_v42) = W6 m ρ c (Proc.devRef .tc main_v42) :=
  calc W7 m ρ c (Proc.devRef .tc main_v42)
    _ = W6 m ρ c (Proc.devRef .tc main_v42) := StableHlo.after_of_forall_not_mem (b := Proc.devRef .tc main_v42) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W9_main_v57 : W9 m ρ c (Proc.devRef .tc main_v57) = W8 m ρ c (Proc.devRef .tc main_v57) :=
  calc W9 m ρ c (Proc.devRef .tc main_v57)
    _ = W8 m ρ c (Proc.devRef .tc main_v57) := StableHlo.after_of_forall_not_mem (b := Proc.devRef .tc main_v57) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W11_main_v70 : W11 m ρ c (Proc.devRef .tc main_v70) = W10 m ρ c (Proc.devRef .tc main_v70) :=
  calc W11 m ρ c (Proc.devRef .tc main_v70)
    _ = W10 m ρ c (Proc.devRef .tc main_v70) := StableHlo.after_of_forall_not_mem (b := Proc.devRef .tc main_v70) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Kept

end
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.LibBlockRows.lean ====
/-
  Rows of a kernel block, on the extended reals.

  A kernel body that works on a block of R rows often (a) scales a sum of two [R, K] blocks by a per-row factor held
  as a column [R, 1] and spread over the lanes, and (b) multiplies an [R, K] block by a [K, N] matrix, accumulating
  into zeros, and adds a bias held as a one-row matrix [1, N] spread over the rows (the bias was reshaped to one row
  on the host, and the body loads that row). In both, row r of the result depends on row r of the row operands alone:
      (a)  k ↦ (a r k + f r k) · s r            (b)  n ↦ (∑ k, a r k · w k n) + b 0 n.
  The lemmas below read those rows, at any extents, for the plain dimension numbers (contract the left operand's
  last axis with the right operand's first, no batch axis). They use `row`, `mat`, `affine` and
  `plain_contr_sum` of LibDenseRows.lean.
-/
import Idealize.ShloMosaic.Lib.ValueLayout
import Idealize.ShloMosaic.Lib.ValueIdx
import Idealize.ShloMosaic.Lib.Pipeline.Value
import Idealize.ShloMosaic.PureOps.Ideal.Laws
import proofs.«125571_j31628139167863_1_alg».proof.Proof.LibDenseRows

noncomputable section

namespace Cert.LibBlockRows

open Idealize.ShloMosaic Idealize.ShloMosaic.ValueIdx Cert.DenseRows

/-- A column [R, 1] spread over K lanes reads, at (r, k), the column at r. -/
theorem column_spread {α : Type} {R K : ℕ} (s : (⟨2, ![R, 1]⟩ : Shape).Idx → α)
    (hb : (⟨2, ![R, 1]⟩ : Shape).Broadcasts ⟨2, ![R, K]⟩) (r : Fin R) (k : Fin K) :
    broadcastTo ⟨2, ![R, K]⟩ s hb (ix2 r k) = s (ix2 r (0 : Fin 1)) := by
  refine broadcastTo_apply s hb (ix2 r k) (ix2 r (0 : Fin 1)) fun ax => ?_
  match ax with
  | ⟨0, _⟩ =>
    show r.val = if R = 1 then 0 else r.val
    split
    · have := r.isLt; omega
    · rfl
  | ⟨1, _⟩ => rfl

/-- A one-row matrix [1, N] spread over R rows reads, at (r, n), the row at n. -/
theorem row_spread {α : Type} {R N : ℕ} (b : (⟨2, ![1, N]⟩ : Shape).Idx → α)
    (hb : (⟨2, ![1, N]⟩ : Shape).Broadcasts ⟨2, ![R, N]⟩) (r : Fin R) (n : Fin N) :
    broadcastTo ⟨2, ![R, N]⟩ b hb (ix2 r n) = b (ix2 (0 : Fin 1) n) := by
  refine broadcastTo_apply b hb (ix2 r n) (ix2 (0 : Fin 1) n) fun ax => ?_
  match ax with
  | ⟨0, _⟩ => rfl
  | ⟨1, _⟩ =>
    show n.val = if N = 1 then 0 else n.val
    split
    · have := n.isLt; omega
    · rfl

/-- Row `r` of `(a + f) · s`, the column `s` spread over the lanes: every entry of the summed row times the one
    factor `s r`. -/
theorem row_scaled_sum {R K : ℕ} (a f : FVec Ideal ⟨2, ![R, K]⟩ .f32) (s : FVec Ideal ⟨2, ![R, 1]⟩ .f32)
    (hb : (⟨2, ![R, 1]⟩ : Shape).Broadcasts ⟨2, ![R, K]⟩) (r : Fin R) :
    row (mulf (addf a f) (broadcastTo ⟨2, ![R, K]⟩ s hb)) r
      = fun k => (row a r k + row f r k) * s (ix2 r (0 : Fin 1)) := by
  funext k
  show (a (ix2 r k) + f (ix2 r k)) * broadcastTo ⟨2, ![R, K]⟩ s hb (ix2 r k) = _
  rw [column_spread]
  rfl

/-- Row `r` of a matrix product accumulated into the zero splat, plus a one-row bias spread over the rows, is the
    dense layer `h ↦ h · w + b` of row `r` of the left operand. -/
theorem row_matmul_rowbias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨2, ![1, N]⟩ .f32)
    (hb : (⟨2, ![1, N]⟩ : Shape).Broadcasts ⟨2, ![R, N]⟩) (r : Fin R) :
    row (addf (matmul d prec a w (constant (F := Ideal) ⟨2, ![R, N]⟩ .f32 0x00000000#32))
          (broadcastTo ⟨2, ![R, N]⟩ b hb)) r
      = affine (row a r) (mat w) (row b (0 : Fin 1)) := by
  subst hd
  funext n
  show FloatOps.matmul (DotDims.plain R K N) prec a w (constant (F := Ideal) ⟨2, ![R, N]⟩ .f32 0x00000000#32) (ix2 r n)
      + broadcastTo ⟨2, ![R, N]⟩ b hb (ix2 r n) = _
  rw [Ideal.matmul_constant_zero_apply, plain_contr_sum, row_spread]
  rfl

end Cert.LibBlockRows

end
-- ==== Proof.PerceptronRows.lean ====
/-
  The perceptron stages read one node row at a time, on the extended reals.

  Row `R` of `relu (relu (x · W1 + b1) · W2 + b2) + res` depends on row `R` of `x` and of `res` alone: it is
  `twoLayerRow` of those two rows, of the two weight matrices and of the two bias vectors. The same function of the
  row comes out of the two spellings met here: over all 100000 rows at once (host contractions, the biases broadcast in
  dimension) and over a block of 5000 rows (matrix products accumulated into zeros, the biases held as one-row matrices
  spread over the rows, with changes of float format and same-shape casts in between, which are the identity on the
  extended reals). Likewise `oneLayerRow` for `relu (x · W + b) + res`.
-/
import proofs.«125571_j31628139167863_1_alg».proof.Proof.Gen.KernelIdeal.Skeleton
import proofs.«125571_j31628139167863_1_alg».proof.Proof.Layers
import proofs.«125571_j31628139167863_1_alg».proof.Proof.LibDenseRows
import proofs.«125571_j31628139167863_1_alg».proof.Proof.LibBlockRows

noncomputable section

namespace Cert.PerceptronRows

open Idealize.ShloMosaic Idealize.ShloMosaic.ValueIdx Cert.DenseRows Cert.LibBlockRows
open Cert.KernelIdeal Cert.KernelIdeal.Gen

/-! ## One row through the layers -/

/-- One row through two dense layers, each followed by the maximum with zero; the residual row is added last. -/
def twoLayerRow (z : Fin 128 → EReal) (W1 : Fin 128 → Fin 128 → EReal) (b1 : Fin 128 → EReal)
    (W2 : Fin 128 → Fin 128 → EReal) (b2 : Fin 128 → EReal) (res : Fin 128 → EReal) : Fin 128 → EReal :=
  fun n => floorAt (Ideal.ofBits .f32 0x00000000#32)
      (affine (floorAt (Ideal.ofBits .f32 0x00000000#32) (affine z W1 b1)) W2 b2) n + res n

/-- One row through one dense layer followed by the maximum with zero; the residual row is added last. -/
def oneLayerRow (z : Fin 128 → EReal) (W : Fin 128 → Fin 128 → EReal) (b : Fin 128 → EReal)
    (res : Fin 128 → EReal) : Fin 128 → EReal :=
  fun n => floorAt (Ideal.ofBits .f32 0x00000000#32) (affine z W b) n + res n

/-- Row `r` of an entrywise sum is the sum of the rows. -/
theorem row_addf {R N : ℕ} (u v : FVec Ideal ⟨2, ![R, N]⟩ .f32) (r : Fin R) :
    row (addf u v) r = fun n => row u r n + row v r n := rfl

/-- Two `[R, N]` arrays with the same rows are the same array. -/
theorem ext_rows {R N : ℕ} (u v : (⟨2, ![R, N]⟩ : Shape).Idx → EReal) (h : ∀ r : Fin R, row u r = row v r) : u = v := by
  funext j
  obtain ⟨p, q, rfl⟩ : ∃ (p : Fin R) (q : Fin N), j = ix2 p q := ⟨j 0, j 1, eq_ix2 j⟩
  exact congrFun (h p) q

/-- A `[128]` vector cast to one row `[1, 128]` has that vector as its row. -/
theorem row_cast_vec {N : ℕ} (b : (⟨1, ![N]⟩ : Shape).Idx → EReal) (h : (⟨1, ![N]⟩ : Shape).ShapeCasts ⟨2, ![1, N]⟩) :
    row (shapeCast ⟨2, ![1, N]⟩ b h) (0 : Fin 1) = vec b := by
  funext n
  exact shapeCast_a_1a_apply b h 0 n

/-! ## The layers over all rows, read at one row -/

/-- Row `R` of the two-layer perceptron over all rows depends on row `R` of the features and of the residual alone. -/
theorem mlp2_row (X RES : FVec Ideal S100000x128 .f32) (W1 W2 : FVec Ideal S128x128 .f32) (b1 b2 : FVec Ideal S128 .f32)
    (R : Fin 100000) :
    row (Cert.Layers.mlp2 X RES W1 b1 W2 b2) R
      = twoLayerRow (row X R) (mat W1) (vec b1) (mat W2) (vec b2) (row RES R) := by
  unfold Cert.Layers.mlp2 Cert.Layers.relu Cert.Layers.dense Cert.Layers.overRows
  rw [row_addf, row_max_splatInDim,
    row_dotGeneral_bias Cert.ReferenceIdeal.dot_S100000x128_S128x128_S100000x128_1_0_0_1_n_n rfl,
    row_max_splatInDim,
    row_dotGeneral_bias Cert.ReferenceIdeal.dot_S100000x128_S128x128_S100000x128_1_0_0_1_n_n rfl]
  rfl

/-- Row `R` of the one-layer perceptron over all rows. -/
theorem mlp1_row (X RES : FVec Ideal S100000x128 .f32) (W : FVec Ideal S128x128 .f32) (b : FVec Ideal S128 .f32)
    (R : Fin 100000) :
    row (Cert.Layers.mlp1 X RES W b) R = oneLayerRow (row X R) (mat W) (vec b) (row RES R) := by
  unfold Cert.Layers.mlp1 Cert.Layers.relu Cert.Layers.dense Cert.Layers.overRows
  rw [row_addf, row_max_splatInDim,
    row_dotGeneral_bias Cert.ReferenceIdeal.dot_S100000x128_S128x128_S100000x128_1_0_0_1_n_n rfl]
  rfl

/-! ## The layers on a block of rows, read at one row -/

/-- Row `r` of what the first two-layer body stores, from the blocks it loaded. -/
theorem k0_row (x0 x1 : Vec Ideal S5000x128 .f32) (w1 w2 : Vec Ideal S128x128 .f32) (r1 r2 : Vec Ideal S1x128 .f32)
    (r : Fin 5000) :
    row (k0_pay1 (F := Ideal) x0 w1 r1 w2 r2 x1) r
      = twoLayerRow (row x0 r) (mat w1) (row r1 (0 : Fin 1)) (mat w2) (row r2 (0 : Fin 1)) (row x1 r) := by
  unfold k0_pay1
  dsimp only
  rw [row_addf, row_max_splat, row_matmul_rowbias dot_S5000x128_S128x128_S5000x128_1_0_0_1_n_n rfl, row_truncf,
    row_max_splat, row_matmul_rowbias dot_S5000x128_S128x128_S5000x128_1_0_0_1_n_n rfl, row_truncf]
  simp only [row_shapeCast_self]
  rfl

/-- Row `r` of what the second two-layer body stores, from the blocks it loaded. -/
theorem k2_row (x0 x1 : Vec Ideal S5000x128 .f32) (w1 w2 : Vec Ideal S128x128 .f32) (r1 r2 : Vec Ideal S1x128 .f32)
    (r : Fin 5000) :
    row (k2_pay1 (F := Ideal) x0 w1 r1 w2 r2 x1) r
      = twoLayerRow (row x0 r) (mat w1) (row r1 (0 : Fin 1)) (mat w2) (row r2 (0 : Fin 1)) (row x1 r) := by
  unfold k2_pay1
  dsimp only
  rw [row_addf, row_max_splat, row_matmul_rowbias dot_S5000x128_S128x128_S5000x128_1_0_0_1_n_n rfl, row_truncf,
    row_max_splat, row_matmul_rowbias dot_S5000x128_S128x128_S5000x128_1_0_0_1_n_n rfl, row_truncf]
  simp only [row_shapeCast_self]
  rfl

/-- Row `r` of what the one-layer body stores, from the blocks it loaded. -/
theorem k4_row (x0 x1 : Vec Ideal S5000x128 .f32) (w : Vec Ideal S128x128 .f32) (r1 : Vec Ideal S1x128 .f32)
    (r : Fin 5000) :
    row (k4_pay1 (F := Ideal) x0 w r1 x1) r
      = oneLayerRow (row x0 r) (mat w) (row r1 (0 : Fin 1)) (row x1 r) := by
  unfold k4_pay1
  dsimp only
  rw [row_addf, row_max_splat, row_matmul_rowbias dot_S5000x128_S128x128_S5000x128_1_0_0_1_n_n rfl, row_truncf]
  simp only [row_shapeCast_self]
  rfl

end Cert.PerceptronRows

end
-- ==== Proof.Region0.lean ====
/-
  The output array of the first two-layer perceptron region, as one function of the arrays the region finds.

  The region runs over twenty grid points. At point `t` the body loads rows `5000 t … 5000 t + 4999` of the feature
  and residual arrays, the whole weight matrices and the two one-row bias arrays, and stores the two-layer perceptron plus the residual of them into the
  output block, which the pipeline writes back to rows `5000 t … 5000 t + 4999` of the output array. Row `p` of the
  stored block is a function of row `p` of the two row blocks and of the whole weights and biases, and row `5000 t + p`
  of the same perceptron spelt over all 100000 rows is the same function of row `5000 t + p` of the two arrays: so what
  point `t` writes back is block `t` of the perceptron over all rows. The twenty blocks tile the array (row `i` is in
  the block of point `i / 5000`), so after the last point the output array is the perceptron over all rows.
-/
import proofs.«125571_j31628139167863_1_alg».proof.Proof.Gen.KernelIdeal.Frame
import proofs.«125571_j31628139167863_1_alg».proof.Proof.Layers
import proofs.«125571_j31628139167863_1_alg».proof.Proof.LibDenseRows
import proofs.«125571_j31628139167863_1_alg».proof.Proof.LibBlockRows
import proofs.«125571_j31628139167863_1_alg».proof.Proof.PerceptronRows
import Idealize.ShloMosaic.Lib.Pipeline.Value
import Idealize.ShloMosaic.Lib.ValueIdx

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx Cert.DenseRows Cert.PerceptronRows

variable (V : (c : Dev nD) → (b : Ref sig .tc) → Buf (Elt Ideal) ((c : Thread nD τ).loc b))

theorem hz : (![0, 0] : Fin 2 → Nat) = fun _ => 0 := funext fun a => by fin_cases a <;> rfl

/-- The block index of every window at a grid point, decided once over the twenty points: the row windows sit at
    block `(t, 0)`, the weights and the bias rows at block `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 20 := Nat.lt_of_lt_of_eq t.isLt N_0

/-- What a point writes back: the body's one whole-block store of its payload over the input windows' blocks. -/
theorem flushed_shape (c : Dev nD) (t : Fin cfg0.N) :
    (dat0 (F := Ideal) V c).flushed 6 t
      = (cfg0.win 6).cut (grid0.coords t) (k0_pay1 (iblk0 V c 0 t) (iblk0 V c 2 t) (iblk0 V c 3 t) (iblk0 V c 4 t) (iblk0 V c 5 t) (iblk0 V c 1 t)) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]

/-! ## The input blocks at a point, as rows of the arrays -/

/-- Row `p` of the feature block at point `t` is row `5000 t + p` of the feature array. -/
theorem x_rows (c : Dev nD) (t : Fin cfg0.N) (p : Fin 5000) (hp : 5000 * t.val + p.val < 100000) :
    row (R := 5000) (K := 128) (iblk0 V c 0 t) p
      = row (V c main_v10 : FVec Ideal S100000x128 .f32) (⟨5000 * t.val + p.val, hp⟩ : Fin 100000) := by
  obtain ⟨e0, e1, -⟩ := index_facts t
  funext k
  show (V c main_v10 : S100000x128.Idx → EReal) (((cfg0.win 0).blk t).view.emb (ix2 p k))
      = (V c main_v10 : S100000x128.Idx → EReal) (ix2 (⟨5000 * t.val + p.val, hp⟩ : Fin 100000) k)
  refine congrArg (V c main_v10 : S100000x128.Idx → EReal) (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

/-- Row `p` of the residual block at point `t` is row `5000 t + p` of the residual array. -/
theorem res_rows (c : Dev nD) (t : Fin cfg0.N) (p : Fin 5000) (hp : 5000 * t.val + p.val < 100000) :
    row (R := 5000) (K := 128) (iblk0 V c 1 t) p
      = row (V c main_arg0 : FVec Ideal S100000x128 .f32) (⟨5000 * t.val + p.val, hp⟩ : Fin 100000) := by
  obtain ⟨-, -, e0, e1, -⟩ := index_facts t
  funext k
  show (V c main_arg0 : S100000x128.Idx → EReal) (((cfg0.win 1).blk t).view.emb (ix2 p k))
      = (V c main_arg0 : S100000x128.Idx → EReal) (ix2 (⟨5000 * t.val + p.val, hp⟩ : Fin 100000) k)
  refine congrArg (V c main_arg0 : S100000x128.Idx → EReal) (funext fun a => Fin.ext ?_)
  match a with
  | ⟨0, _⟩ => show win0_1.index t (0 : Fin 2) * 5000 + 1 * p.val = 5000 * t.val + p.val; omega
  | ⟨1, _⟩ => show win0_1.index t (1 : Fin 2) * 128 + 1 * k.val = k.val; omega

/-- The first weight window's block at any point is the whole weight array. -/
theorem w1_whole (c : Dev nD) (t : Fin cfg0.N) :
    (iblk0 V c 2 t : Vec Ideal S128x128 .f32) = (V c main_arg1 : FVec Ideal S128x128 .f32) := by
  obtain ⟨-, -, -, -, e0, e1, -⟩ := index_facts t
  funext j
  show (V c main_arg1 : S128x128.Idx → EReal) (((cfg0.win 2).blk t).view.emb j) = (V c main_arg1 : S128x128.Idx → EReal) j
  refine congrArg (V c main_arg1 : S128x128.Idx → EReal) (funext fun a => Fin.ext ?_)
  match a with
  | ⟨0, _⟩ => show win0_2.index t (0 : Fin 2) * 128 + 1 * (j 0).val = (j 0).val; omega
  | ⟨1, _⟩ => show win0_2.index t (1 : Fin 2) * 128 + 1 * (j 1).val = (j 1).val; omega

/-- The first bias window's block at any point is the whole one-row array. -/
theorem b1_whole (c : Dev nD) (t : Fin cfg0.N) :
    (iblk0 V c 3 t : Vec Ideal S1x128 .f32) = (V c main_v11 : FVec Ideal S1x128 .f32) := by
  obtain ⟨-, -, -, -, -, -, e0, e1, -⟩ := index_facts t
  funext j
  show (V c main_v11 : S1x128.Idx → EReal) (((cfg0.win 3).blk t).view.emb j) = (V c main_v11 : S1x128.Idx → EReal) j
  refine congrArg (V c main_v11 : S1x128.Idx → EReal) (funext fun a => Fin.ext ?_)
  match a with
  | ⟨0, _⟩ => show win0_3.index t (0 : Fin 2) * 1 + 1 * (j 0).val = (j 0).val; omega
  | ⟨1, _⟩ => show win0_3.index t (1 : Fin 2) * 128 + 1 * (j 1).val = (j 1).val; omega

/-- The second weight window's block at any point is the whole weight array. -/
theorem w2_whole (c : Dev nD) (t : Fin cfg0.N) :
    (iblk0 V c 4 t : Vec Ideal S128x128 .f32) = (V c main_arg3 : FVec Ideal S128x128 .f32) := by
  obtain ⟨-, -, -, -, -, -, -, -, e0, e1, -⟩ := index_facts t
  funext j
  show (V c main_arg3 : S128x128.Idx → EReal) (((cfg0.win 4).blk t).view.emb j) = (V c main_arg3 : S128x128.Idx → EReal) j
  refine congrArg (V c main_arg3 : S128x128.Idx → EReal) (funext fun a => Fin.ext ?_)
  match a with
  | ⟨0, _⟩ => show win0_4.index t (0 : Fin 2) * 128 + 1 * (j 0).val = (j 0).val; omega
  | ⟨1, _⟩ => show win0_4.index t (1 : Fin 2) * 128 + 1 * (j 1).val = (j 1).val; omega

/-- The second bias window's block at any point is the whole one-row array. -/
theorem b2_whole (c : Dev nD) (t : Fin cfg0.N) :
    (iblk0 V c 5 t : Vec Ideal S1x128 .f32) = (V c main_v12 : FVec Ideal S1x128 .f32) := by
  obtain ⟨-, -, -, -, -, -, -, -, -, -, e0, e1, -⟩ := index_facts t
  funext j
  show (V c main_v12 : S1x128.Idx → EReal) (((cfg0.win 5).blk t).view.emb j) = (V c main_v12 : S1x128.Idx → EReal) j
  refine congrArg (V c main_v12 : S1x128.Idx → EReal) (funext fun a => Fin.ext ?_)
  match a with
  | ⟨0, _⟩ => show win0_5.index t (0 : Fin 2) * 1 + 1 * (j 0).val = (j 0).val; omega
  | ⟨1, _⟩ => show win0_5.index t (1 : Fin 2) * 128 + 1 * (j 1).val = (j 1).val; omega

/-! ## One point's block of the output -/

/-- The payload on blocks that are rows `5000 T …` of the arrays has, as its row `p`, row `5000 T + p` of the
    two-layer perceptron over all rows. -/
theorem payload_rows (x0 x1 : Vec Ideal S5000x128 .f32) (w1 w2 : Vec Ideal S128x128 .f32) (r1 r2 : Vec Ideal S1x128 .f32)
    (X RES : FVec Ideal S100000x128 .f32) (W1 W2 : FVec Ideal S128x128 .f32) (b1 b2 : FVec Ideal S128 .f32) (T : ℕ)
    (hx0 : ∀ (p : Fin 5000) (h : 5000 * T + p.val < 100000), row x0 p = row X (⟨5000 * T + p.val, h⟩ : Fin 100000))
    (hx1 : ∀ (p : Fin 5000) (h : 5000 * T + p.val < 100000), row x1 p = row RES (⟨5000 * T + p.val, h⟩ : Fin 100000))
    (hw1 : w1 = W1) (hw2 : w2 = W2)
    (hr1 : r1 = shapeCast S1x128 b1 Facts₀.shapeCasts_S128_S1x128)
    (hr2 : r2 = shapeCast S1x128 b2 Facts₀.shapeCasts_S128_S1x128)
    (p : Fin 5000) (h : 5000 * T + p.val < 100000) :
    row (k0_pay1 (F := Ideal) x0 w1 r1 w2 r2 x1) p
      = row (Cert.Layers.mlp2 X RES W1 b1 W2 b2) (⟨5000 * T + p.val, h⟩ : Fin 100000) := by
  rw [k0_row, mlp2_row, hx0 p h, hx1 p h, hw1, hw2, hr1, hr2, row_cast_vec, row_cast_vec]

/-- A block of 5000 rows whose row `p` is row `5000 t + p` of an array `G` is, cut to what the write-back at
    point `t` moves, block `t` of `G` read through the output window. -/
theorem out_block (t : Fin cfg0.N) (P : Vec Ideal S5000x128 .f32) (G : FVec Ideal S100000x128 .f32)
    (h : ∀ (p : Fin 5000) (hp : 5000 * t.val + p.val < 100000), row P p = row G (⟨5000 * t.val + p.val, hp⟩ : Fin 100000)) :
    (cfg0.win 6).cut (grid0.coords t) P = ((cfg0.win 6).blk t).view.read (Elt Ideal) G := by
  obtain ⟨-, -, -, -, -, -, -, -, -, -, -, -, e0, e1⟩ := index_facts t
  have ht := point_lt t
  funext j
  have hj0 : (j 0).val < 5000 := (j 0).isLt
  have hj1 : (j 1).val < 128 := (j 1).isLt
  have hp : 5000 * t.val + (j 0).val < 100000 := by omega
  show P (win0_6.xinj (grid0.coords t) j) = G (((cfg0.win 6).blk t).view.emb j)
  have e2 : win0_6.xinj (grid0.coords t) j = ix2 (⟨(j 0).val, hj0⟩ : Fin 5000) (⟨(j 1).val, hj1⟩ : Fin 128) :=
    funext fun a => by
      match a with
      | ⟨0, _⟩ => rfl
      | ⟨1, _⟩ => rfl
  have e3 : ((cfg0.win 6).blk t).view.emb j
      = ix2 (⟨5000 * t.val + (j 0).val, hp⟩ : Fin 100000) (⟨(j 1).val, hj1⟩ : Fin 128) :=
    funext fun a => Fin.ext (by
      match a with
      | ⟨0, _⟩ => show win0_6.index t (0 : Fin 2) * 5000 + 1 * (j 0).val = 5000 * t.val + (j 0).val; omega
      | ⟨1, _⟩ => show win0_6.index t (1 : Fin 2) * 128 + 1 * (j 1).val = (j 1).val; omega)
  rw [e2, e3]
  exact congrFun (h ⟨(j 0).val, hj0⟩ hp) ⟨(j 1).val, hj1⟩

/-- What point `t` writes back is block `t` of the two-layer perceptron of the window arrays. -/
theorem flushed_eq (c : Dev nD) (b1 b2 : FVec Ideal S128 .f32)
    (hb1 : V c main_v11 = shapeCast S1x128 b1 Facts₀.shapeCasts_S128_S1x128)
    (hb2 : V c main_v12 = shapeCast S1x128 b2 Facts₀.shapeCasts_S128_S1x128) (t : Fin cfg0.N) :
    (dat0 (F := Ideal) V c).flushed 6 t
      = ((cfg0.win 6).blk t).view.read (Elt Ideal)
          (Cert.Layers.mlp2 (V c main_v10) (V c main_arg0) (V c main_arg1) b1 (V c main_arg3) b2) := by
  rw [flushed_shape]
  refine out_block t _ _ fun p hp => ?_
  exact payload_rows _ _ _ _ _ _ (V c main_v10) (V c main_arg0) (V c main_arg1) (V c main_arg3) b1 b2 t.val
    (fun q h => x_rows V c t q h) (fun q h => res_rows V c t q h) (w1_whole V c t) (w2_whole V c t)
    ((b1_whole V c t).trans hb1) ((b2_whole V c t).trans hb2) p hp

/-! ## The blocks tile the array -/

/-- An index of the array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v13).slice (win0_6.rect t)).set ↔ _
  rw [View.set_slice_whole, Rect.mem_set_unit]
  exact Iff.rfl

/-- Row `i` of the array is in the block of point `i / 5000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, -, -, -, -, -, -, e0, e1⟩ := index_facts t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-! ## The region's output array -/

/-- After the twenty points the output array is the two-layer perceptron, spelt over all rows, of the window arrays
    as the region found them. -/
theorem out (c : Dev nD) (b1 b2 : FVec Ideal S128 .f32)
    (hb1 : V c main_v11 = shapeCast S1x128 b1 Facts₀.shapeCasts_S128_S1x128)
    (hb2 : V c main_v12 = shapeCast S1x128 b2 Facts₀.shapeCasts_S128_S1x128) :
    (dat0 (F := Ideal) V c).arrAt 6 cfg0.N
      = Cert.Layers.mlp2 (V c main_v10) (V c main_arg0) (V c main_arg1) b1 (V c main_arg3) b2 :=
  (dat0 (F := Ideal) V c).arrAt_eq_of_cover 6 _ (fun t _ => flushed_eq V c b1 b2 hb1 hb2 t) cover

end Cert.KernelIdeal.Region0

end
-- ==== Proof.NormRead.lean ====
/-
  The normalisation with given statistics, read one entry at a time, on the extended reals.

  With a mean μ, a variance v, a gain g and an offset β per lane, the entry of row r at lane q goes to
      ((x r q - μ q) · (v q + ε)^(-1/2)) · g q + β q,
  the factors multiplied in this order. A program spells it in two ways. On a block of rows, the four vectors are
  held as one-row matrices [1, N] and each is spread over the R rows of the block; the reciprocal square root is taken
  of the one row before it is spread. Over all rows, the four vectors [N] are broadcast in dimension twice,
  [N] → [1, N] → [R, N], and the reciprocal square root is taken of the vector. Both spellings read, at (r, q), the
  same expression `normAt` of the entry and of the four vectors at lane q; the constant ε is a float word that is
  the same on both sides and is never evaluated.
-/
import Idealize.ShloMosaic.Lib.ValueLayout
import Idealize.ShloMosaic.Lib.ValueIdx
import Idealize.ShloMosaic.PureOps.Ideal.Laws
import proofs.«125571_j31628139167863_1_alg».proof.Proof.Layers
import proofs.«125571_j31628139167863_1_alg».proof.Proof.LibDenseRows

noncomputable section

namespace Cert.NormRead

open Idealize.ShloMosaic Idealize.ShloMosaic.ValueIdx

/-- One entry of the normalisation: `((x - μ) · (v + ε)^(-1/2)) · g + β`. -/
def normAt (x μ v g β ε : EReal) : EReal := ((x - μ) * Ideal.rsqrt (v + ε)) * g + β

/-- The block spelling at `(r, q)`: the four one-row matrices are read at `(0, q)`. The casts of a shape to itself
    change nothing, and a one-row matrix spread over the rows reads its one row. -/
theorem block_norm_apply {R N : ℕ} (x0 : FVec Ideal ⟨2, ![R, N]⟩ .f32) (rv rm rg rb : FVec Ideal ⟨2, ![1, N]⟩ .f32)
    (hc0 : (⟨2, ![R, N]⟩ : Shape).ShapeCasts ⟨2, ![R, N]⟩) (hc1 : (⟨2, ![1, N]⟩ : Shape).ShapeCasts ⟨2, ![1, N]⟩)
    (hb : (⟨2, ![1, N]⟩ : Shape).Broadcasts ⟨2, ![R, N]⟩) (w : BitVec 32) (r : Fin R) (q : Fin N) :
    addf (mulf (mulf (subf (shapeCast ⟨2, ![R, N]⟩ x0 hc0) (broadcastTo ⟨2, ![R, N]⟩ (shapeCast ⟨2, ![1, N]⟩ rm hc1) hb))
          (broadcastTo ⟨2, ![R, N]⟩ (rsqrt (addf (shapeCast ⟨2, ![1, N]⟩ rv hc1) (broadcast ⟨2, ![1, N]⟩ (Scalar.ofBits (F := Ideal) .f32 w)))) hb))
          (broadcastTo ⟨2, ![R, N]⟩ (shapeCast ⟨2, ![1, N]⟩ rg hc1) hb))
        (broadcastTo ⟨2, ![R, N]⟩ (shapeCast ⟨2, ![1, N]⟩ rb hc1) hb) (ix2 r q)
      = normAt (x0 (ix2 r q)) (rm (ix2 (0 : Fin 1) q)) (rv (ix2 (0 : Fin 1) q)) (rg (ix2 (0 : Fin 1) q))
          (rb (ix2 (0 : Fin 1) q)) (Ideal.ofBits .f32 w) := by
  rw [shapeCast_self, shapeCast_self, shapeCast_self, shapeCast_self, shapeCast_self]
  show ((x0 (ix2 r q) - broadcastTo ⟨2, ![R, N]⟩ rm hb (ix2 r q))
        * broadcastTo ⟨2, ![R, N]⟩ (rsqrt (addf rv (broadcast ⟨2, ![1, N]⟩ (Scalar.ofBits (F := Ideal) .f32 w)))) hb (ix2 r q))
        * broadcastTo ⟨2, ![R, N]⟩ rg hb (ix2 r q) + broadcastTo ⟨2, ![R, N]⟩ rb hb (ix2 r q) = _
  rw [broadcastTo_1b_ab_apply, broadcastTo_1b_ab_apply, broadcastTo_1b_ab_apply, broadcastTo_1b_ab_apply]
  rfl

/-- The reciprocal square root of the variance plus ε, at lane `q`. -/
theorem invStd_apply (var : FVec Ideal Cert.ReferenceIdeal.S128 .f32) (q : Fin 128) :
    Cert.Layers.invStd var (ix1 q) = Ideal.rsqrt (var (ix1 q) + Ideal.ofBits .f32 0x3727C5AC#32) := by
  unfold Cert.Layers.invStd
  show Ideal.rsqrt (var (ix1 q) + broadcastInDim Cert.ReferenceIdeal.S128 ![] _
      (constant (F := Ideal) Cert.ReferenceIdeal.S_ .f32 0x3727C5AC#32) (ix1 q)) = _
  rw [Cert.DenseRows.splat_apply]
  rfl

/-- The spelling over all rows at `(r, q)`: the four vectors are read at `q`. -/
theorem bnorm_apply (h : FVec Ideal Cert.ReferenceIdeal.S100000x128 .f32)
    (mean var g be : FVec Ideal Cert.ReferenceIdeal.S128 .f32) (r : Fin 100000) (q : Fin 128) :
    Cert.Layers.bnorm h mean var g be (ix2 r q)
      = normAt (h (ix2 r q)) (mean (ix1 q)) (var (ix1 q)) (g (ix1 q)) (be (ix1 q)) (Ideal.ofBits .f32 0x3727C5AC#32) := by
  unfold Cert.Layers.bnorm Cert.Layers.overRows
  show ((h (ix2 r q) - broadcastInDim Cert.ReferenceIdeal.S100000x128 ![0, 1] _ (broadcastInDim Cert.ReferenceIdeal.S1x128 ![1] _ mean) (ix2 r q))
        * broadcastInDim Cert.ReferenceIdeal.S100000x128 ![0, 1] _ (broadcastInDim Cert.ReferenceIdeal.S1x128 ![1] _ (Cert.Layers.invStd var)) (ix2 r q))
        * broadcastInDim Cert.ReferenceIdeal.S100000x128 ![0, 1] _ (broadcastInDim Cert.ReferenceIdeal.S1x128 ![1] _ g) (ix2 r q)
        + broadcastInDim Cert.ReferenceIdeal.S100000x128 ![0, 1] _ (broadcastInDim Cert.ReferenceIdeal.S1x128 ![1] _ be) (ix2 r q) = _
  rw [Cert.DenseRows.broadcastTwice_apply, Cert.DenseRows.broadcastTwice_apply, Cert.DenseRows.broadcastTwice_apply,
    Cert.DenseRows.broadcastTwice_apply, invStd_apply]
  rfl

end Cert.NormRead

end
-- ==== Proof.Region1.lean ====
/-
  The first normalisation region of the network: its output array after the twenty grid points.

  The region works on blocks of 5000 node rows. At grid point t it reads rows 5000·t … 5000·t + 4999 of the
  input array and the whole of four one-row arrays (mean, variance, gain, offset), and writes
      ((x - mean) · (variance + ε)^(-1/2)) · gain + offset
  to the same rows of the output array. The twenty blocks tile the 100000 rows, so the output array ends holding
  the normalisation of the whole input array, spelt over all rows at once (`Cert.Layers.bnorm`), whenever the four
  one-row arrays are vectors of 128 lanes laid out as one row.

  Steps: the block indices of the six windows at every grid point (decided over the twenty points); each input
  block read off its array; one entry of the body's result against the same entry of the whole-array function; the
  block a point writes back is that function's block; the blocks cover the array.
-/
import proofs.«125571_j31628139167863_1_alg».proof.Proof.Gen.KernelIdeal.Frame
import proofs.«125571_j31628139167863_1_alg».proof.Proof.Layers
import proofs.«125571_j31628139167863_1_alg».proof.Proof.NormRead
import Idealize.ShloMosaic.Lib.ValueLayout
import Idealize.ShloMosaic.Lib.ValueIdx
import Idealize.ShloMosaic.Lib.Pipeline.Value

noncomputable section

namespace Cert.KernelIdeal.Region1

open Cert.KernelIdeal Cert.KernelIdeal.Gen Idealize.ShloMosaic Idealize.ShloMosaic.ValueIdx Idealize.ShloMosaic.TcCoe Idealize.SL.Sem
open Idealize.ShloMosaic.Pipeline (Dat)
open Cert.NormRead

variable (V : (c : Dev nD) → (b : Ref sig .tc) → Buf (Elt Ideal) ((c : Thread nD τ).loc b))

theorem hz : (![0, 0] : Fin 2 → Nat) = fun _ => 0 := funext fun a => by fin_cases a <;> rfl

/-! ## The block indices at the twenty grid points -/

/-- The two row windows (input rows, output rows) are at block `(t, 0)` at point `t`; the four one-row windows stay
    at block `(0, 0)`. -/
theorem idx_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-! ## The input blocks, read off their arrays -/

/-- The mean window's block at every point is its whole one-row array. -/
theorem row1 (c : Dev nD) (t : Fin cfg1.N) : (iblk1 V c 1 t : Vec Ideal S1x128 .f32) = V c main_v24 := by
  obtain ⟨-, -, -, -, e0, e1, -⟩ := idx_facts t
  funext z
  show V c main_v24 (((cfg1.win 1).blk t).view.emb z) = V c main_v24 z
  refine congrArg _ (funext fun a => Fin.ext ?_)
  match a with
  | ⟨0, _⟩ => show win1_1.index t (0 : Fin 2) * 1 + 1 * (z 0).val = (z 0).val; rw [e0]; omega
  | ⟨1, _⟩ => show win1_1.index t (1 : Fin 2) * 128 + 1 * (z 1).val = (z 1).val; rw [e1]; omega

/-- The variance window's block at every point is its whole one-row array. -/
theorem row2 (c : Dev nD) (t : Fin cfg1.N) : (iblk1 V c 2 t : Vec Ideal S1x128 .f32) = V c main_v25 := by
  obtain ⟨-, -, -, -, -, -, e0, e1, -⟩ := idx_facts t
  funext z
  show V c main_v25 (((cfg1.win 2).blk t).view.emb z) = V c main_v25 z
  refine congrArg _ (funext fun a => Fin.ext ?_)
  match a with
  | ⟨0, _⟩ => show win1_2.index t (0 : Fin 2) * 1 + 1 * (z 0).val = (z 0).val; rw [e0]; omega
  | ⟨1, _⟩ => show win1_2.index t (1 : Fin 2) * 128 + 1 * (z 1).val = (z 1).val; rw [e1]; omega

/-- The gain window's block at every point is its whole one-row array. -/
theorem row3 (c : Dev nD) (t : Fin cfg1.N) : (iblk1 V c 3 t : Vec Ideal S1x128 .f32) = V c main_v26 := by
  obtain ⟨-, -, -, -, -, -, -, -, e0, e1, -⟩ := idx_facts t
  funext z
  show V c main_v26 (((cfg1.win 3).blk t).view.emb z) = V c main_v26 z
  refine congrArg _ (funext fun a => Fin.ext ?_)
  match a with
  | ⟨0, _⟩ => show win1_3.index t (0 : Fin 2) * 1 + 1 * (z 0).val = (z 0).val; rw [e0]; omega
  | ⟨1, _⟩ => show win1_3.index t (1 : Fin 2) * 128 + 1 * (z 1).val = (z 1).val; rw [e1]; omega

/-- The offset window's block at every point is its whole one-row array. -/
theorem row4 (c : Dev nD) (t : Fin cfg1.N) : (iblk1 V c 4 t : Vec Ideal S1x128 .f32) = V c main_v27 := by
  obtain ⟨-, -, -, -, -, -, -, -, -, -, e0, e1⟩ := idx_facts t
  funext z
  show V c main_v27 (((cfg1.win 4).blk t).view.emb z) = V c main_v27 z
  refine congrArg _ (funext fun a => Fin.ext ?_)
  match a with
  | ⟨0, _⟩ => show win1_4.index t (0 : Fin 2) * 1 + 1 * (z 0).val = (z 0).val; rw [e0]; omega
  | ⟨1, _⟩ => show win1_4.index t (1 : Fin 2) * 128 + 1 * (z 1).val = (z 1).val; rw [e1]; omega

/-- The input rows' block at point `t` sits where the output's block sits: an entry of it is the input array's
    entry at the place the output's block puts that entry. -/
theorem rows0 (c : Dev nD) (t : Fin cfg1.N) (y : S5000x128.Idx) :
    (iblk1 V c 0 t : Vec Ideal S5000x128 .f32) y = V c main_v13 (((cfg1.win 5).blk t).view.emb y) := by
  obtain ⟨e0, e1, e2, e3, -⟩ := idx_facts t
  show V c main_v13 (((cfg1.win 0).blk t).view.emb y) = V c main_v13 (((cfg1.win 5).blk t).view.emb y)
  refine congrArg _ (funext fun a => Fin.ext ?_)
  match a with
  | ⟨0, _⟩ => show win1_0.index t (0 : Fin 2) * 5000 + 1 * (y 0).val = win1_5.index t (0 : Fin 2) * 5000 + 1 * (y 0).val; rw [e0, e2]
  | ⟨1, _⟩ => show win1_0.index t (1 : Fin 2) * 128 + 1 * (y 1).val = win1_5.index t (1 : Fin 2) * 128 + 1 * (y 1).val; rw [e1, e3]

/-- The lane of an entry of the output's block is the lane of its place in the array. -/
theorem lane5 (t : Fin cfg1.N) (y : S5000x128.Idx) : ((((cfg1.win 5).blk t).view.emb y) 1).val = (y 1).val := by
  obtain ⟨-, -, -, e3, -⟩ := idx_facts t
  show win1_5.index t (1 : Fin 2) * 128 + 1 * (y 1).val = (y 1).val
  rw [e3]; omega

/-! ## One entry of the body's result -/

/-- The body's result at `(r, q)`, from the loaded blocks: the rows' entry and the four one-row blocks at lane `q`
    (the body loads the rows, then the variance row, the mean row, the gain row and the offset row). -/
theorem pay_apply (x0 : Vec Ideal S5000x128 .f32) (rv rm rg rb : Vec Ideal S1x128 .f32) (r : Fin 5000) (q : Fin 128) :
    k1_pay1 x0 rv rm rg rb (ix2 r q)
      = normAt (x0 (ix2 r q)) (rm (ix2 (0 : Fin 1) q)) (rv (ix2 (0 : Fin 1) q)) (rg (ix2 (0 : Fin 1) q))
          (rb (ix2 (0 : Fin 1) q)) (Ideal.ofBits .f32 0x3727C5AC#32) :=
  block_norm_apply (R := 5000) (N := 128) x0 rv rm rg rb _ _ _ _ r q

/-- An entry of the body's result is the whole-array normalisation's entry at any place of the array that holds
    the same input entry in the same lane, when the four one-row blocks are the four vectors laid out as one row. -/
theorem point_eq (h : FVec Ideal S100000x128 .f32) (mean var g be : FVec Ideal S128 .f32)
    (x0 : Vec Ideal S5000x128 .f32) (rv rm rg rb : Vec Ideal S1x128 .f32)
    (hrm : rm = shapeCast S1x128 mean Facts₀.shapeCasts_S128_S1x128)
    (hrv : rv = shapeCast S1x128 var Facts₀.shapeCasts_S128_S1x128)
    (hrg : rg = shapeCast S1x128 g Facts₀.shapeCasts_S128_S1x128)
    (hrb : rb = shapeCast S1x128 be Facts₀.shapeCasts_S128_S1x128)
    (y : S5000x128.Idx) (i : S100000x128.Idx) (hx : x0 y = h i) (hq : (i 1).val = (y 1).val) :
    k1_pay1 x0 rv rm rg rb y = Cert.Layers.bnorm h mean var g be i := by
  obtain ⟨r, q, rfl⟩ : ∃ (r : Fin 5000) (q : Fin 128), y = ix2 r q := ⟨y 0, y 1, eq_ix2 y⟩
  obtain ⟨r', q', rfl⟩ : ∃ (r' : Fin 100000) (q' : Fin 128), i = ix2 r' q' := ⟨i 0, i 1, eq_ix2 i⟩
  obtain rfl : q' = q := Fin.ext hq
  rw [pay_apply, bnorm_apply, hx, hrm, hrv, hrg, hrb, shapeCast_a_1a_apply, shapeCast_a_1a_apply,
    shapeCast_a_1a_apply, shapeCast_a_1a_apply]

/-! ## What a point writes back, and the array after the last point -/

/-- What grid point `t` writes back to the output array is block `t` of the whole-array normalisation of the
    input array as the region finds it. -/
theorem flushed_eq (c : Dev nD) (mean var g be : FVec Ideal S128 .f32)
    (hm : V c main_v24 = shapeCast S1x128 mean Facts₀.shapeCasts_S128_S1x128)
    (hv : V c main_v25 = shapeCast S1x128 var Facts₀.shapeCasts_S128_S1x128)
    (hg : V c main_v26 = shapeCast S1x128 g Facts₀.shapeCasts_S128_S1x128)
    (hbe : V c main_v27 = shapeCast S1x128 be Facts₀.shapeCasts_S128_S1x128) (t : Fin cfg1.N) :
    (dat1 (F := Ideal) V c).flushed 5 t
      = ((cfg1.win 5).blk t).view.read (Elt Ideal) (Cert.Layers.bnorm (V c main_v13) mean var g be) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  funext y
  show k1_pay1 (iblk1 V c 0 t) (iblk1 V c 2 t) (iblk1 V c 1 t) (iblk1 V c 3 t) (iblk1 V c 4 t) y
    = Cert.Layers.bnorm (V c main_v13) mean var g be (((cfg1.win 5).blk t).view.emb y)
  exact point_eq (V c main_v13) mean var g be (iblk1 V c 0 t) (iblk1 V c 2 t) (iblk1 V c 1 t) (iblk1 V c 3 t) (iblk1 V c 4 t)
    ((row1 V c t).trans hm) ((row2 V c t).trans hv) ((row3 V c t).trans hg) ((row4 V c t).trans hbe)
    y (((cfg1.win 5).blk t).view.emb y) (rows0 V c t y) (lane5 t y)

/-- An entry of the array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v28).slice (win1_5.rect t)).set ↔ _
  rw [View.set_slice_whole, Rect.mem_set_unit]
  exact Iff.rfl

/-- Every entry of the array is in the block of the point its row falls to: row `i` belongs to point `i / 5000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have ht : t.val = (i 0).val / 5000 := rfl
  obtain ⟨-, -, e2, e3, -⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; rw [e2, ht]; omega
  | ⟨1, _⟩ => show win1_5.index t (1 : Fin 2) * 128 ≤ (i 1).val ∧ (i 1).val < win1_5.index t (1 : Fin 2) * 128 + 128; rw [e3]; omega

/-- THE REGION'S OUTPUT: after the twenty grid points the output array holds the normalisation of the whole input
    array, whenever the four one-row arrays the region reads are vectors of 128 lanes laid out as one row. -/
theorem out (c : Dev nD) (mean var g be : FVec Ideal S128 .f32)
    (hm : V c main_v24 = shapeCast S1x128 mean Facts₀.shapeCasts_S128_S1x128)
    (hv : V c main_v25 = shapeCast S1x128 var Facts₀.shapeCasts_S128_S1x128)
    (hg : V c main_v26 = shapeCast S1x128 g Facts₀.shapeCasts_S128_S1x128)
    (hbe : V c main_v27 = shapeCast S1x128 be Facts₀.shapeCasts_S128_S1x128) :
    (dat1 (F := Ideal) V c).arrAt 5 cfg1.N = Cert.Layers.bnorm (V c main_v13) mean var g be :=
  (dat1 (F := Ideal) V c).arrAt_eq_of_cover 5 (Cert.Layers.bnorm (V c main_v13) mean var g be)
    (fun t _ => flushed_eq V c mean var g be hm hv hg hbe t) cover

end Cert.KernelIdeal.Region1

end
-- ==== Proof.Region2.lean ====
/-
  The output array of the second two-layer perceptron region, as one function of the arrays the region finds.

  The region runs over twenty grid points. At point `t` the body loads rows `5000 t … 5000 t + 4999` of the feature
  and residual arrays, the whole weight matrices and the two one-row bias arrays, and stores the two-layer perceptron plus the residual of them into the
  output block, which the pipeline writes back to rows `5000 t … 5000 t + 4999` of the output array. Row `p` of the
  stored block is a function of row `p` of the two row blocks and of the whole weights and biases, and row `5000 t + p`
  of the same perceptron spelt over all 100000 rows is the same function of row `5000 t + p` of the two arrays: so what
  point `t` writes back is block `t` of the perceptron over all rows. The twenty blocks tile the array (row `i` is in
  the block of point `i / 5000`), so after the last point the output array is the perceptron over all rows.
-/
import proofs.«125571_j31628139167863_1_alg».proof.Proof.Gen.KernelIdeal.Frame
import proofs.«125571_j31628139167863_1_alg».proof.Proof.Layers
import proofs.«125571_j31628139167863_1_alg».proof.Proof.LibDenseRows
import proofs.«125571_j31628139167863_1_alg».proof.Proof.LibBlockRows
import proofs.«125571_j31628139167863_1_alg».proof.Proof.PerceptronRows
import Idealize.ShloMosaic.Lib.Pipeline.Value
import Idealize.ShloMosaic.Lib.ValueIdx

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx Cert.DenseRows Cert.PerceptronRows

variable (V : (c : Dev nD) → (b : Ref sig .tc) → Buf (Elt Ideal) ((c : Thread nD τ).loc b))

theorem hz : (![0, 0] : Fin 2 → Nat) = fun _ => 0 := funext fun a => by fin_cases a <;> rfl

/-- The block index of every window at a grid point, decided once over the twenty points: the row windows sit at
    block `(t, 0)`, the weights and the bias rows at block `(0, 0)`. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem point_lt (t : Fin cfg2.N) : t.val < 20 := Nat.lt_of_lt_of_eq t.isLt N_2

/-- What a point writes back: the body's one whole-block store of its payload over the input windows' blocks. -/
theorem flushed_shape (c : Dev nD) (t : Fin cfg2.N) :
    (dat2 (F := Ideal) V c).flushed 6 t
      = (cfg2.win 6).cut (grid2.coords t) (k2_pay1 (iblk2 V c 0 t) (iblk2 V c 2 t) (iblk2 V c 3 t) (iblk2 V c 4 t) (iblk2 V c 5 t) (iblk2 V c 1 t)) := by
  show (cfg2.win 6).cut (grid2.coords t) ((dat2 V c).after 6 t) = _
  rw [after2_6]
  unfold out2_6
  rw [View.canon_unit_zero hz]
  simp only [View.ld_unit_zero (S := S5000x128) hz, View.ld_unit_zero (S := S128x128) hz, View.ld_unit_zero (S := S1x128) hz]

/-! ## The input blocks at a point, as rows of the arrays -/

/-- Row `p` of the feature block at point `t` is row `5000 t + p` of the feature array. -/
theorem x_rows (c : Dev nD) (t : Fin cfg2.N) (p : Fin 5000) (hp : 5000 * t.val + p.val < 100000) :
    row (R := 5000) (K := 128) (iblk2 V c 0 t) p
      = row (V c main_v39 : FVec Ideal S100000x128 .f32) (⟨5000 * t.val + p.val, hp⟩ : Fin 100000) := by
  obtain ⟨e0, e1, -⟩ := index_facts t
  funext k
  show (V c main_v39 : S100000x128.Idx → EReal) (((cfg2.win 0).blk t).view.emb (ix2 p k))
      = (V c main_v39 : S100000x128.Idx → EReal) (ix2 (⟨5000 * t.val + p.val, hp⟩ : Fin 100000) k)
  refine congrArg (V c main_v39 : S100000x128.Idx → EReal) (funext fun a => Fin.ext ?_)
  match a with
  | ⟨0, _⟩ => show win2_0.index t (0 : Fin 2) * 5000 + 1 * p.val = 5000 * t.val + p.val; omega
  | ⟨1, _⟩ => show win2_0.index t (1 : Fin 2) * 128 + 1 * k.val = k.val; omega

/-- Row `p` of the residual block at point `t` is row `5000 t + p` of the residual array. -/
theorem res_rows (c : Dev nD) (t : Fin cfg2.N) (p : Fin 5000) (hp : 5000 * t.val + p.val < 100000) :
    row (R := 5000) (K := 128) (iblk2 V c 1 t) p
      = row (V c main_v28 : FVec Ideal S100000x128 .f32) (⟨5000 * t.val + p.val, hp⟩ : Fin 100000) := by
  obtain ⟨-, -, e0, e1, -⟩ := index_facts t
  funext k
  show (V c main_v28 : S100000x128.Idx → EReal) (((cfg2.win 1).blk t).view.emb (ix2 p k))
      = (V c main_v28 : S100000x128.Idx → EReal) (ix2 (⟨5000 * t.val + p.val, hp⟩ : Fin 100000) k)
  refine congrArg (V c main_v28 : S100000x128.Idx → EReal) (funext fun a => Fin.ext ?_)
  match a with
  | ⟨0, _⟩ => show win2_1.index t (0 : Fin 2) * 5000 + 1 * p.val = 5000 * t.val + p.val; omega
  | ⟨1, _⟩ => show win2_1.index t (1 : Fin 2) * 128 + 1 * k.val = k.val; omega

/-- The first weight window's block at any point is the whole weight array. -/
theorem w1_whole (c : Dev nD) (t : Fin cfg2.N) :
    (iblk2 V c 2 t : Vec Ideal S128x128 .f32) = (V c main_arg5 : FVec Ideal S128x128 .f32) := by
  obtain ⟨-, -, -, -, e0, e1, -⟩ := index_facts t
  funext j
  show (V c main_arg5 : S128x128.Idx → EReal) (((cfg2.win 2).blk t).view.emb j) = (V c main_arg5 : S128x128.Idx → EReal) j
  refine congrArg (V c main_arg5 : S128x128.Idx → EReal) (funext fun a => Fin.ext ?_)
  match a with
  | ⟨0, _⟩ => show win2_2.index t (0 : Fin 2) * 128 + 1 * (j 0).val = (j 0).val; omega
  | ⟨1, _⟩ => show win2_2.index t (1 : Fin 2) * 128 + 1 * (j 1).val = (j 1).val; omega

/-- The first bias window's block at any point is the whole one-row array. -/
theorem b1_whole (c : Dev nD) (t : Fin cfg2.N) :
    (iblk2 V c 3 t : Vec Ideal S1x128 .f32) = (V c main_v40 : FVec Ideal S1x128 .f32) := by
  obtain ⟨-, -, -, -, -, -, e0, e1, -⟩ := index_facts t
  funext j
  show (V c main_v40 : S1x128.Idx → EReal) (((cfg2.win 3).blk t).view.emb j) = (V c main_v40 : S1x128.Idx → EReal) j
  refine congrArg (V c main_v40 : S1x128.Idx → EReal) (funext fun a => Fin.ext ?_)
  match a with
  | ⟨0, _⟩ => show win2_3.index t (0 : Fin 2) * 1 + 1 * (j 0).val = (j 0).val; omega
  | ⟨1, _⟩ => show win2_3.index t (1 : Fin 2) * 128 + 1 * (j 1).val = (j 1).val; omega

/-- The second weight window's block at any point is the whole weight array. -/
theorem w2_whole (c : Dev nD) (t : Fin cfg2.N) :
    (iblk2 V c 4 t : Vec Ideal S128x128 .f32) = (V c main_arg7 : FVec Ideal S128x128 .f32) := by
  obtain ⟨-, -, -, -, -, -, -, -, e0, e1, -⟩ := index_facts t
  funext j
  show (V c main_arg7 : S128x128.Idx → EReal) (((cfg2.win 4).blk t).view.emb j) = (V c main_arg7 : S128x128.Idx → EReal) j
  refine congrArg (V c main_arg7 : S128x128.Idx → EReal) (funext fun a => Fin.ext ?_)
  match a with
  | ⟨0, _⟩ => show win2_4.index t (0 : Fin 2) * 128 + 1 * (j 0).val = (j 0).val; omega
  | ⟨1, _⟩ => show win2_4.index t (1 : Fin 2) * 128 + 1 * (j 1).val = (j 1).val; omega

/-- The second bias window's block at any point is the whole one-row array. -/
theorem b2_whole (c : Dev nD) (t : Fin cfg2.N) :
    (iblk2 V c 5 t : Vec Ideal S1x128 .f32) = (V c main_v41 : FVec Ideal S1x128 .f32) := by
  obtain ⟨-, -, -, -, -, -, -, -, -, -, e0, e1, -⟩ := index_facts t
  funext j
  show (V c main_v41 : S1x128.Idx → EReal) (((cfg2.win 5).blk t).view.emb j) = (V c main_v41 : S1x128.Idx → EReal) j
  refine congrArg (V c main_v41 : S1x128.Idx → EReal) (funext fun a => Fin.ext ?_)
  match a with
  | ⟨0, _⟩ => show win2_5.index t (0 : Fin 2) * 1 + 1 * (j 0).val = (j 0).val; omega
  | ⟨1, _⟩ => show win2_5.index t (1 : Fin 2) * 128 + 1 * (j 1).val = (j 1).val; omega

/-! ## One point's block of the output -/

/-- The payload on blocks that are rows `5000 T …` of the arrays has, as its row `p`, row `5000 T + p` of the
    two-layer perceptron over all rows. -/
theorem payload_rows (x0 x1 : Vec Ideal S5000x128 .f32) (w1 w2 : Vec Ideal S128x128 .f32) (r1 r2 : Vec Ideal S1x128 .f32)
    (X RES : FVec Ideal S100000x128 .f32) (W1 W2 : FVec Ideal S128x128 .f32) (b1 b2 : FVec Ideal S128 .f32) (T : ℕ)
    (hx0 : ∀ (p : Fin 5000) (h : 5000 * T + p.val < 100000), row x0 p = row X (⟨5000 * T + p.val, h⟩ : Fin 100000))
    (hx1 : ∀ (p : Fin 5000) (h : 5000 * T + p.val < 100000), row x1 p = row RES (⟨5000 * T + p.val, h⟩ : Fin 100000))
    (hw1 : w1 = W1) (hw2 : w2 = W2)
    (hr1 : r1 = shapeCast S1x128 b1 Facts₀.shapeCasts_S128_S1x128)
    (hr2 : r2 = shapeCast S1x128 b2 Facts₀.shapeCasts_S128_S1x128)
    (p : Fin 5000) (h : 5000 * T + p.val < 100000) :
    row (k2_pay1 (F := Ideal) x0 w1 r1 w2 r2 x1) p
      = row (Cert.Layers.mlp2 X RES W1 b1 W2 b2) (⟨5000 * T + p.val, h⟩ : Fin 100000) := by
  rw [k2_row, mlp2_row, hx0 p h, hx1 p h, hw1, hw2, hr1, hr2, row_cast_vec, row_cast_vec]

/-- A block of 5000 rows whose row `p` is row `5000 t + p` of an array `G` is, cut to what the write-back at
    point `t` moves, block `t` of `G` read through the output window. -/
theorem out_block (t : Fin cfg2.N) (P : Vec Ideal S5000x128 .f32) (G : FVec Ideal S100000x128 .f32)
    (h : ∀ (p : Fin 5000) (hp : 5000 * t.val + p.val < 100000), row P p = row G (⟨5000 * t.val + p.val, hp⟩ : Fin 100000)) :
    (cfg2.win 6).cut (grid2.coords t) P = ((cfg2.win 6).blk t).view.read (Elt Ideal) G := by
  obtain ⟨-, -, -, -, -, -, -, -, -, -, -, -, e0, e1⟩ := index_facts t
  have ht := point_lt t
  funext j
  have hj0 : (j 0).val < 5000 := (j 0).isLt
  have hj1 : (j 1).val < 128 := (j 1).isLt
  have hp : 5000 * t.val + (j 0).val < 100000 := by omega
  show P (win2_6.xinj (grid2.coords t) j) = G (((cfg2.win 6).blk t).view.emb j)
  have e2 : win2_6.xinj (grid2.coords t) j = ix2 (⟨(j 0).val, hj0⟩ : Fin 5000) (⟨(j 1).val, hj1⟩ : Fin 128) :=
    funext fun a => by
      match a with
      | ⟨0, _⟩ => rfl
      | ⟨1, _⟩ => rfl
  have e3 : ((cfg2.win 6).blk t).view.emb j
      = ix2 (⟨5000 * t.val + (j 0).val, hp⟩ : Fin 100000) (⟨(j 1).val, hj1⟩ : Fin 128) :=
    funext fun a => Fin.ext (by
      match a with
      | ⟨0, _⟩ => show win2_6.index t (0 : Fin 2) * 5000 + 1 * (j 0).val = 5000 * t.val + (j 0).val; omega
      | ⟨1, _⟩ => show win2_6.index t (1 : Fin 2) * 128 + 1 * (j 1).val = (j 1).val; omega)
  rw [e2, e3]
  exact congrFun (h ⟨(j 0).val, hj0⟩ hp) ⟨(j 1).val, hj1⟩

/-- What point `t` writes back is block `t` of the two-layer perceptron of the window arrays. -/
theorem flushed_eq (c : Dev nD) (b1 b2 : FVec Ideal S128 .f32)
    (hb1 : V c main_v40 = shapeCast S1x128 b1 Facts₀.shapeCasts_S128_S1x128)
    (hb2 : V c main_v41 = shapeCast S1x128 b2 Facts₀.shapeCasts_S128_S1x128) (t : Fin cfg2.N) :
    (dat2 (F := Ideal) V c).flushed 6 t
      = ((cfg2.win 6).blk t).view.read (Elt Ideal)
          (Cert.Layers.mlp2 (V c main_v39) (V c main_v28) (V c main_arg5) b1 (V c main_arg7) b2) := by
  rw [flushed_shape]
  refine out_block t _ _ fun p hp => ?_
  exact payload_rows _ _ _ _ _ _ (V c main_v39) (V c main_v28) (V c main_arg5) (V c main_arg7) b1 b2 t.val
    (fun q h => x_rows V c t q h) (fun q h => res_rows V c t q h) (w1_whole V c t) (w2_whole V c t)
    ((b1_whole V c t).trans hb1) ((b2_whole V c t).trans hb2) p hp

/-! ## The blocks tile the array -/

/-- An index of the array is in point `t`'s block iff each coordinate is in the block's range on its axis. -/
theorem mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v42).slice (win2_6.rect t)).set ↔ _
  rw [View.set_slice_whole, Rect.mem_set_unit]
  exact Iff.rfl

/-- Row `i` of the array is in the block of point `i / 5000`. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, -, -, -, -, -, -, e0, e1⟩ := index_facts t
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-! ## The region's output array -/

/-- After the twenty points the output array is the two-layer perceptron, spelt over all rows, of the window arrays
    as the region found them. -/
theorem out (c : Dev nD) (b1 b2 : FVec Ideal S128 .f32)
    (hb1 : V c main_v40 = shapeCast S1x128 b1 Facts₀.shapeCasts_S128_S1x128)
    (hb2 : V c main_v41 = shapeCast S1x128 b2 Facts₀.shapeCasts_S128_S1x128) :
    (dat2 (F := Ideal) V c).arrAt 6 cfg2.N
      = Cert.Layers.mlp2 (V c main_v39) (V c main_v28) (V c main_arg5) b1 (V c main_arg7) b2 :=
  (dat2 (F := Ideal) V c).arrAt_eq_of_cover 6 _ (fun t _ => flushed_eq V c b1 b2 hb1 hb2 t) cover

end Cert.KernelIdeal.Region2

end
-- ==== Proof.Region3.lean ====
/-
  The second normalisation region of the network: its output array after the twenty grid points.

  The region works on blocks of 5000 node rows. At grid point t it reads rows 5000·t … 5000·t + 4999 of the
  input array and the whole of four one-row arrays (mean, variance, gain, offset), and writes
      ((x - mean) · (variance + ε)^(-1/2)) · gain + offset
  to the same rows of the output array. The twenty blocks tile the 100000 rows, so the output array ends holding
  the normalisation of the whole input array, spelt over all rows at once (`Cert.Layers.bnorm`), whenever the four
  one-row arrays are vectors of 128 lanes laid out as one row.

  Steps: the block indices of the six windows at every grid point (decided over the twenty points); each input
  block read off its array; one entry of the body's result against the same entry of the whole-array function; the
  block a point writes back is that function's block; the blocks cover the array.
-/
import proofs.«125571_j31628139167863_1_alg».proof.Proof.Gen.KernelIdeal.Frame
import proofs.«125571_j31628139167863_1_alg».proof.Proof.Layers
import proofs.«125571_j31628139167863_1_alg».proof.Proof.NormRead
import Idealize.ShloMosaic.Lib.ValueLayout
import Idealize.ShloMosaic.Lib.ValueIdx
import Idealize.ShloMosaic.Lib.Pipeline.Value

noncomputable section

namespace Cert.KernelIdeal.Region3

open Cert.KernelIdeal Cert.KernelIdeal.Gen Idealize.ShloMosaic Idealize.ShloMosaic.ValueIdx Idealize.ShloMosaic.TcCoe Idealize.SL.Sem
open Idealize.ShloMosaic.Pipeline (Dat)
open Cert.NormRead

variable (V : (c : Dev nD) → (b : Ref sig .tc) → Buf (Elt Ideal) ((c : Thread nD τ).loc b))

theorem hz : (![0, 0] : Fin 2 → Nat) = fun _ => 0 := funext fun a => by fin_cases a <;> rfl

/-! ## The block indices at the twenty grid points -/

/-- The two row windows (input rows, output rows) are at block `(t, 0)` at point `t`; the four one-row windows stay
    at block `(0, 0)`. -/
theorem idx_facts : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-! ## The input blocks, read off their arrays -/

/-- The mean window's block at every point is its whole one-row array. -/
theorem row1 (c : Dev nD) (t : Fin cfg3.N) : (iblk3 V c 1 t : Vec Ideal S1x128 .f32) = V c main_v53 := by
  obtain ⟨-, -, -, -, e0, e1, -⟩ := idx_facts t
  funext z
  show V c main_v53 (((cfg3.win 1).blk t).view.emb z) = V c main_v53 z
  refine congrArg _ (funext fun a => Fin.ext ?_)
  match a with
  | ⟨0, _⟩ => show win3_1.index t (0 : Fin 2) * 1 + 1 * (z 0).val = (z 0).val; rw [e0]; omega
  | ⟨1, _⟩ => show win3_1.index t (1 : Fin 2) * 128 + 1 * (z 1).val = (z 1).val; rw [e1]; omega

/-- The variance window's block at every point is its whole one-row array. -/
theorem row2 (c : Dev nD) (t : Fin cfg3.N) : (iblk3 V c 2 t : Vec Ideal S1x128 .f32) = V c main_v54 := by
  obtain ⟨-, -, -, -, -, -, e0, e1, -⟩ := idx_facts t
  funext z
  show V c main_v54 (((cfg3.win 2).blk t).view.emb z) = V c main_v54 z
  refine congrArg _ (funext fun a => Fin.ext ?_)
  match a with
  | ⟨0, _⟩ => show win3_2.index t (0 : Fin 2) * 1 + 1 * (z 0).val = (z 0).val; rw [e0]; omega
  | ⟨1, _⟩ => show win3_2.index t (1 : Fin 2) * 128 + 1 * (z 1).val = (z 1).val; rw [e1]; omega

/-- The gain window's block at every point is its whole one-row array. -/
theorem row3 (c : Dev nD) (t : Fin cfg3.N) : (iblk3 V c 3 t : Vec Ideal S1x128 .f32) = V c main_v55 := by
  obtain ⟨-, -, -, -, -, -, -, -, e0, e1, -⟩ := idx_facts t
  funext z
  show V c main_v55 (((cfg3.win 3).blk t).view.emb z) = V c main_v55 z
  refine congrArg _ (funext fun a => Fin.ext ?_)
  match a with
  | ⟨0, _⟩ => show win3_3.index t (0 : Fin 2) * 1 + 1 * (z 0).val = (z 0).val; rw [e0]; omega
  | ⟨1, _⟩ => show win3_3.index t (1 : Fin 2) * 128 + 1 * (z 1).val = (z 1).val; rw [e1]; omega

/-- The offset window's block at every point is its whole one-row array. -/
theorem row4 (c : Dev nD) (t : Fin cfg3.N) : (iblk3 V c 4 t : Vec Ideal S1x128 .f32) = V c main_v56 := by
  obtain ⟨-, -, -, -, -, -, -, -, -, -, e0, e1⟩ := idx_facts t
  funext z
  show V c main_v56 (((cfg3.win 4).blk t).view.emb z) = V c main_v56 z
  refine congrArg _ (funext fun a => Fin.ext ?_)
  match a with
  | ⟨0, _⟩ => show win3_4.index t (0 : Fin 2) * 1 + 1 * (z 0).val = (z 0).val; rw [e0]; omega
  | ⟨1, _⟩ => show win3_4.index t (1 : Fin 2) * 128 + 1 * (z 1).val = (z 1).val; rw [e1]; omega

/-- The input rows' block at point `t` sits where the output's block sits: an entry of it is the input array's
    entry at the place the output's block puts that entry. -/
theorem rows0 (c : Dev nD) (t : Fin cfg3.N) (y : S5000x128.Idx) :
    (iblk3 V c 0 t : Vec Ideal S5000x128 .f32) y = V c main_v42 (((cfg3.win 5).blk t).view.emb y) := by
  obtain ⟨e0, e1, e2, e3, -⟩ := idx_facts t
  show V c main_v42 (((cfg3.win 0).blk t).view.emb y) = V c main_v42 (((cfg3.win 5).blk t).view.emb y)
  refine congrArg _ (funext fun a => Fin.ext ?_)
  match a with
  | ⟨0, _⟩ => show win3_0.index t (0 : Fin 2) * 5000 + 1 * (y 0).val = win3_5.index t (0 : Fin 2) * 5000 + 1 * (y 0).val; rw [e0, e2]
  | ⟨1, _⟩ => show win3_0.index t (1 : Fin 2) * 128 + 1 * (y 1).val = win3_5.index t (1 : Fin 2) * 128 + 1 * (y 1).val; rw [e1, e3]

/-- The lane of an entry of the output's block is the lane of its place in the array. -/
theorem lane5 (t : Fin cfg3.N) (y : S5000x128.Idx) : ((((cfg3.win 5).blk t).view.emb y) 1).val = (y 1).val := by
  obtain ⟨-, -, -, e3, -⟩ := idx_facts t
  show win3_5.index t (1 : Fin 2) * 128 + 1 * (y 1).val = (y 1).val
  rw [e3]; omega

/-! ## One entry of the body's result -/

/-- The body's result at `(r, q)`, from the loaded blocks: the rows' entry and the four one-row blocks at lane `q`
    (the body loads the rows, then the variance row, the mean row, the gain row and the offset row). -/
theorem pay_apply (x0 : Vec Ideal S5000x128 .f32) (rv rm rg rb : Vec Ideal S1x128 .f32) (r : Fin 5000) (q : Fin 128) :
    k3_pay1 x0 rv rm rg rb (ix2 r q)
      = normAt (x0 (ix2 r q)) (rm (ix2 (0 : Fin 1) q)) (rv (ix2 (0 : Fin 1) q)) (rg (ix2 (0 : Fin 1) q))
          (rb (ix2 (0 : Fin 1) q)) (Ideal.ofBits .f32 0x3727C5AC#32) :=
  block_norm_apply (R := 5000) (N := 128) x0 rv rm rg rb _ _ _ _ r q

/-- An entry of the body's result is the whole-array normalisation's entry at any place of the array that holds
    the same input entry in the same lane, when the four one-row blocks are the four vectors laid out as one row. -/
theorem point_eq (h : FVec Ideal S100000x128 .f32) (mean var g be : FVec Ideal S128 .f32)
    (x0 : Vec Ideal S5000x128 .f32) (rv rm rg rb : Vec Ideal S1x128 .f32)
    (hrm : rm = shapeCast S1x128 mean Facts₀.shapeCasts_S128_S1x128)
    (hrv : rv = shapeCast S1x128 var Facts₀.shapeCasts_S128_S1x128)
    (hrg : rg = shapeCast S1x128 g Facts₀.shapeCasts_S128_S1x128)
    (hrb : rb = shapeCast S1x128 be Facts₀.shapeCasts_S128_S1x128)
    (y : S5000x128.Idx) (i : S100000x128.Idx) (hx : x0 y = h i) (hq : (i 1).val = (y 1).val) :
    k3_pay1 x0 rv rm rg rb y = Cert.Layers.bnorm h mean var g be i := by
  obtain ⟨r, q, rfl⟩ : ∃ (r : Fin 5000) (q : Fin 128), y = ix2 r q := ⟨y 0, y 1, eq_ix2 y⟩
  obtain ⟨r', q', rfl⟩ : ∃ (r' : Fin 100000) (q' : Fin 128), i = ix2 r' q' := ⟨i 0, i 1, eq_ix2 i⟩
  obtain rfl : q' = q := Fin.ext hq
  rw [pay_apply, bnorm_apply, hx, hrm, hrv, hrg, hrb, shapeCast_a_1a_apply, shapeCast_a_1a_apply,
    shapeCast_a_1a_apply, shapeCast_a_1a_apply]

/-! ## What a point writes back, and the array after the last point -/

/-- What grid point `t` writes back to the output array is block `t` of the whole-array normalisation of the
    input array as the region finds it. -/
theorem flushed_eq (c : Dev nD) (mean var g be : FVec Ideal S128 .f32)
    (hm : V c main_v53 = shapeCast S1x128 mean Facts₀.shapeCasts_S128_S1x128)
    (hv : V c main_v54 = shapeCast S1x128 var Facts₀.shapeCasts_S128_S1x128)
    (hg : V c main_v55 = shapeCast S1x128 g Facts₀.shapeCasts_S128_S1x128)
    (hbe : V c main_v56 = shapeCast S1x128 be Facts₀.shapeCasts_S128_S1x128) (t : Fin cfg3.N) :
    (dat3 (F := Ideal) V c).flushed 5 t
      = ((cfg3.win 5).blk t).view.read (Elt Ideal) (Cert.Layers.bnorm (V c main_v42) mean var g be) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  funext y
  show k3_pay1 (iblk3 V c 0 t) (iblk3 V c 2 t) (iblk3 V c 1 t) (iblk3 V c 3 t) (iblk3 V c 4 t) y
    = Cert.Layers.bnorm (V c main_v42) mean var g be (((cfg3.win 5).blk t).view.emb y)
  exact point_eq (V c main_v42) mean var g be (iblk3 V c 0 t) (iblk3 V c 2 t) (iblk3 V c 1 t) (iblk3 V c 3 t) (iblk3 V c 4 t)
    ((row1 V c t).trans hm) ((row2 V c t).trans hv) ((row3 V c t).trans hg) ((row4 V c t).trans hbe)
    y (((cfg3.win 5).blk t).view.emb y) (rows0 V c t y) (lane5 t y)

/-- An entry of the array is in point `t`'s block iff each coordinate is in the block's range on its axis. -/
theorem mem_blk (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v57).slice (win3_5.rect t)).set ↔ _
  rw [View.set_slice_whole, Rect.mem_set_unit]
  exact Iff.rfl

/-- Every entry of the array is in the block of the point its row falls to: row `i` belongs to point `i / 5000`. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  have ht : t.val = (i 0).val / 5000 := rfl
  obtain ⟨-, -, e2, e3, -⟩ := idx_facts t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; rw [e2, ht]; omega
  | ⟨1, _⟩ => show win3_5.index t (1 : Fin 2) * 128 ≤ (i 1).val ∧ (i 1).val < win3_5.index t (1 : Fin 2) * 128 + 128; rw [e3]; omega

/-- THE REGION'S OUTPUT: after the twenty grid points the output array holds the normalisation of the whole input
    array, whenever the four one-row arrays the region reads are vectors of 128 lanes laid out as one row. -/
theorem out (c : Dev nD) (mean var g be : FVec Ideal S128 .f32)
    (hm : V c main_v53 = shapeCast S1x128 mean Facts₀.shapeCasts_S128_S1x128)
    (hv : V c main_v54 = shapeCast S1x128 var Facts₀.shapeCasts_S128_S1x128)
    (hg : V c main_v55 = shapeCast S1x128 g Facts₀.shapeCasts_S128_S1x128)
    (hbe : V c main_v56 = shapeCast S1x128 be Facts₀.shapeCasts_S128_S1x128) :
    (dat3 (F := Ideal) V c).arrAt 5 cfg3.N = Cert.Layers.bnorm (V c main_v42) mean var g be :=
  (dat3 (F := Ideal) V c).arrAt_eq_of_cover 5 (Cert.Layers.bnorm (V c main_v42) mean var g be)
    (fun t _ => flushed_eq V c mean var g be hm hv hg hbe t) cover

end Cert.KernelIdeal.Region3

end
-- ==== Proof.Region4.lean ====
/-
  The output array of the one-layer perceptron region, as one function of the arrays the region finds.

  The region runs over twenty grid points. At point `t` the body loads rows `5000 t … 5000 t + 4999` of the feature
  and residual arrays, the whole weight matrix and the one-row bias array, and stores the one-layer perceptron plus the residual of them into the
  output block, which the pipeline writes back to rows `5000 t … 5000 t + 4999` of the output array. Row `p` of the
  stored block is a function of row `p` of the two row blocks and of the whole weights and biases, and row `5000 t + p`
  of the same perceptron spelt over all 100000 rows is the same function of row `5000 t + p` of the two arrays: so what
  point `t` writes back is block `t` of the perceptron over all rows. The twenty blocks tile the array (row `i` is in
  the block of point `i / 5000`), so after the last point the output array is the perceptron over all rows.
-/
import proofs.«125571_j31628139167863_1_alg».proof.Proof.Gen.KernelIdeal.Frame
import proofs.«125571_j31628139167863_1_alg».proof.Proof.Layers
import proofs.«125571_j31628139167863_1_alg».proof.Proof.LibDenseRows
import proofs.«125571_j31628139167863_1_alg».proof.Proof.LibBlockRows
import proofs.«125571_j31628139167863_1_alg».proof.Proof.PerceptronRows
import Idealize.ShloMosaic.Lib.Pipeline.Value
import Idealize.ShloMosaic.Lib.ValueIdx

noncomputable section

namespace Cert.KernelIdeal.Region4

open Cert.KernelIdeal Cert.KernelIdeal.Gen Idealize.ShloMosaic Idealize.ShloMosaic.TcCoe Idealize.SL.Sem
open Idealize.ShloMosaic.Pipeline (Dat)
open Idealize.ShloMosaic.ValueIdx Cert.DenseRows Cert.PerceptronRows

variable (V : (c : Dev nD) → (b : Ref sig .tc) → Buf (Elt Ideal) ((c : Thread nD τ).loc b))

theorem hz : (![0, 0] : Fin 2 → Nat) = fun _ => 0 := funext fun a => by fin_cases a <;> rfl

/-- The block index of every window at a grid point, decided once over the twenty points: the row windows sit at
    block `(t, 0)`, the weights and the bias row at block `(0, 0)`. -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

theorem point_lt (t : Fin cfg4.N) : t.val < 20 := Nat.lt_of_lt_of_eq t.isLt N_4

/-- What a point writes back: the body's one whole-block store of its payload over the input windows' blocks. -/
theorem flushed_shape (c : Dev nD) (t : Fin cfg4.N) :
    (dat4 (F := Ideal) V c).flushed 4 t
      = (cfg4.win 4).cut (grid4.coords t) (k4_pay1 (iblk4 V c 0 t) (iblk4 V c 2 t) (iblk4 V c 3 t) (iblk4 V c 1 t)) := by
  show (cfg4.win 4).cut (grid4.coords t) ((dat4 V c).after 4 t) = _
  rw [after4_4]
  unfold out4_4
  rw [View.canon_unit_zero hz]
  simp only [View.ld_unit_zero (S := S5000x128) hz, View.ld_unit_zero (S := S128x128) hz, View.ld_unit_zero (S := S1x128) hz]

/-! ## The input blocks at a point, as rows of the arrays -/

/-- Row `p` of the feature block at point `t` is row `5000 t + p` of the feature array. -/
theorem x_rows (c : Dev nD) (t : Fin cfg4.N) (p : Fin 5000) (hp : 5000 * t.val + p.val < 100000) :
    row (R := 5000) (K := 128) (iblk4 V c 0 t) p
      = row (V c main_v68 : FVec Ideal S100000x128 .f32) (⟨5000 * t.val + p.val, hp⟩ : Fin 100000) := by
  obtain ⟨e0, e1, -⟩ := index_facts t
  funext k
  show (V c main_v68 : S100000x128.Idx → EReal) (((cfg4.win 0).blk t).view.emb (ix2 p k))
      = (V c main_v68 : S100000x128.Idx → EReal) (ix2 (⟨5000 * t.val + p.val, hp⟩ : Fin 100000) k)
  refine congrArg (V c main_v68 : S100000x128.Idx → EReal) (funext fun a => Fin.ext ?_)
  match a with
  | ⟨0, _⟩ => show win4_0.index t (0 : Fin 2) * 5000 + 1 * p.val = 5000 * t.val + p.val; omega
  | ⟨1, _⟩ => show win4_0.index t (1 : Fin 2) * 128 + 1 * k.val = k.val; omega

/-- Row `p` of the residual block at point `t` is row `5000 t + p` of the residual array. -/
theorem res_rows (c : Dev nD) (t : Fin cfg4.N) (p : Fin 5000) (hp : 5000 * t.val + p.val < 100000) :
    row (R := 5000) (K := 128) (iblk4 V c 1 t) p
      = row (V c main_v57 : FVec Ideal S100000x128 .f32) (⟨5000 * t.val + p.val, hp⟩ : Fin 100000) := by
  obtain ⟨-, -, e0, e1, -⟩ := index_facts t
  funext k
  show (V c main_v57 : S100000x128.Idx → EReal) (((cfg4.win 1).blk t).view.emb (ix2 p k))
      = (V c main_v57 : S100000x128.Idx → EReal) (ix2 (⟨5000 * t.val + p.val, hp⟩ : Fin 100000) k)
  refine congrArg (V c main_v57 : S100000x128.Idx → EReal) (funext fun a => Fin.ext ?_)
  match a with
  | ⟨0, _⟩ => show win4_1.index t (0 : Fin 2) * 5000 + 1 * p.val = 5000 * t.val + p.val; omega
  | ⟨1, _⟩ => show win4_1.index t (1 : Fin 2) * 128 + 1 * k.val = k.val; omega

/-- The weight window's block at any point is the whole weight array. -/
theorem w_whole (c : Dev nD) (t : Fin cfg4.N) :
    (iblk4 V c 2 t : Vec Ideal S128x128 .f32) = (V c main_arg9 : FVec Ideal S128x128 .f32) := by
  obtain ⟨-, -, -, -, e0, e1, -⟩ := index_facts t
  funext j
  show (V c main_arg9 : S128x128.Idx → EReal) (((cfg4.win 2).blk t).view.emb j) = (V c main_arg9 : S128x128.Idx → EReal) j
  refine congrArg (V c main_arg9 : S128x128.Idx → EReal) (funext fun a => Fin.ext ?_)
  match a with
  | ⟨0, _⟩ => show win4_2.index t (0 : Fin 2) * 128 + 1 * (j 0).val = (j 0).val; omega
  | ⟨1, _⟩ => show win4_2.index t (1 : Fin 2) * 128 + 1 * (j 1).val = (j 1).val; omega

/-- The bias window's block at any point is the whole one-row array. -/
theorem b_whole (c : Dev nD) (t : Fin cfg4.N) :
    (iblk4 V c 3 t : Vec Ideal S1x128 .f32) = (V c main_v69 : FVec Ideal S1x128 .f32) := by
  obtain ⟨-, -, -, -, -, -, e0, e1, -⟩ := index_facts t
  funext j
  show (V c main_v69 : S1x128.Idx → EReal) (((cfg4.win 3).blk t).view.emb j) = (V c main_v69 : S1x128.Idx → EReal) j
  refine congrArg (V c main_v69 : S1x128.Idx → EReal) (funext fun a => Fin.ext ?_)
  match a with
  | ⟨0, _⟩ => show win4_3.index t (0 : Fin 2) * 1 + 1 * (j 0).val = (j 0).val; omega
  | ⟨1, _⟩ => show win4_3.index t (1 : Fin 2) * 128 + 1 * (j 1).val = (j 1).val; omega

/-! ## One point's block of the output -/

/-- The payload on blocks that are rows `5000 T …` of the arrays has, as its row `p`, row `5000 T + p` of the
    one-layer perceptron over all rows. -/
theorem payload_rows (x0 x1 : Vec Ideal S5000x128 .f32) (w : Vec Ideal S128x128 .f32) (r1 : Vec Ideal S1x128 .f32)
    (X RES : FVec Ideal S100000x128 .f32) (W : FVec Ideal S128x128 .f32) (b : FVec Ideal S128 .f32) (T : ℕ)
    (hx0 : ∀ (p : Fin 5000) (h : 5000 * T + p.val < 100000), row x0 p = row X (⟨5000 * T + p.val, h⟩ : Fin 100000))
    (hx1 : ∀ (p : Fin 5000) (h : 5000 * T + p.val < 100000), row x1 p = row RES (⟨5000 * T + p.val, h⟩ : Fin 100000))
    (hw : w = W)
    (hr1 : r1 = shapeCast S1x128 b Facts₀.shapeCasts_S128_S1x128)
    (p : Fin 5000) (h : 5000 * T + p.val < 100000) :
    row (k4_pay1 (F := Ideal) x0 w r1 x1) p
      = row (Cert.Layers.mlp1 X RES W b) (⟨5000 * T + p.val, h⟩ : Fin 100000) := by
  rw [k4_row, mlp1_row, hx0 p h, hx1 p h, hw, hr1, row_cast_vec]

/-- A block of 5000 rows whose row `p` is row `5000 t + p` of an array `G` is, cut to what the write-back at
    point `t` moves, block `t` of `G` read through the output window. -/
theorem out_block (t : Fin cfg4.N) (P : Vec Ideal S5000x128 .f32) (G : FVec Ideal S100000x128 .f32)
    (h : ∀ (p : Fin 5000) (hp : 5000 * t.val + p.val < 100000), row P p = row G (⟨5000 * t.val + p.val, hp⟩ : Fin 100000)) :
    (cfg4.win 4).cut (grid4.coords t) P = ((cfg4.win 4).blk t).view.read (Elt Ideal) G := by
  obtain ⟨-, -, -, -, -, -, -, -, e0, e1⟩ := index_facts t
  have ht := point_lt t
  funext j
  have hj0 : (j 0).val < 5000 := (j 0).isLt
  have hj1 : (j 1).val < 128 := (j 1).isLt
  have hp : 5000 * t.val + (j 0).val < 100000 := by omega
  show P (win4_4.xinj (grid4.coords t) j) = G (((cfg4.win 4).blk t).view.emb j)
  have e2 : win4_4.xinj (grid4.coords t) j = ix2 (⟨(j 0).val, hj0⟩ : Fin 5000) (⟨(j 1).val, hj1⟩ : Fin 128) :=
    funext fun a => by
      match a with
      | ⟨0, _⟩ => rfl
      | ⟨1, _⟩ => rfl
  have e3 : ((cfg4.win 4).blk t).view.emb j
      = ix2 (⟨5000 * t.val + (j 0).val, hp⟩ : Fin 100000) (⟨(j 1).val, hj1⟩ : Fin 128) :=
    funext fun a => Fin.ext (by
      match a with
      | ⟨0, _⟩ => show win4_4.index t (0 : Fin 2) * 5000 + 1 * (j 0).val = 5000 * t.val + (j 0).val; omega
      | ⟨1, _⟩ => show win4_4.index t (1 : Fin 2) * 128 + 1 * (j 1).val = (j 1).val; omega)
  rw [e2, e3]
  exact congrFun (h ⟨(j 0).val, hj0⟩ hp) ⟨(j 1).val, hj1⟩

/-- What point `t` writes back is block `t` of the one-layer perceptron of the window arrays. -/
theorem flushed_eq (c : Dev nD) (b : FVec Ideal S128 .f32)
    (hb : V c main_v69 = shapeCast S1x128 b Facts₀.shapeCasts_S128_S1x128) (t : Fin cfg4.N) :
    (dat4 (F := Ideal) V c).flushed 4 t
      = ((cfg4.win 4).blk t).view.read (Elt Ideal)
          (Cert.Layers.mlp1 (V c main_v68) (V c main_v57) (V c main_arg9) b) := by
  rw [flushed_shape]
  refine out_block t _ _ fun p hp => ?_
  exact payload_rows _ _ _ _ (V c main_v68) (V c main_v57) (V c main_arg9) b t.val
    (fun q h => x_rows V c t q h) (fun q h => res_rows V c t q h) (w_whole V c t)
    ((b_whole V c t).trans hb) p hp

/-! ## The blocks tile the array -/

/-- An index of the array is in point `t`'s block iff each coordinate is in the block's range on its axis. -/
theorem mem_blk (t : Fin cfg4.N) (i : S100000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v70).slice (win4_4.rect t)).set ↔ _
  rw [View.set_slice_whole, Rect.mem_set_unit]
  exact Iff.rfl

/-- Row `i` of the array is in the block of point `i / 5000`. -/
theorem cover (i : S100000x128.Idx) :
    ∃ t : Fin cfg4.N, (cfg4.win 4).flush t = true ∧ i ∈ ((cfg4.win 4).blk t).view.set := by
  have hi0 : (i 0).val < 100000 := (i 0).isLt
  have hi1 : (i 1).val < 128 := (i 1).isLt
  obtain ⟨t, ht⟩ : ∃ t : Fin cfg4.N, t.val = (i 0).val / 5000 :=
    ⟨⟨(i 0).val / 5000, by rw [show cfg4.N = 20 from N_4]; omega⟩, rfl⟩
  obtain ⟨-, -, -, -, -, -, -, -, e0, e1⟩ := index_facts t
  refine ⟨t, flush4_4 t, ?_⟩
  rw [mem_blk]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega

/-! ## The region's output array -/

/-- After the twenty points the output array is the one-layer perceptron, spelt over all rows, of the window arrays
    as the region found them. -/
theorem out (c : Dev nD) (b : FVec Ideal S128 .f32)
    (hb : V c main_v69 = shapeCast S1x128 b Facts₀.shapeCasts_S128_S1x128) :
    (dat4 (F := Ideal) V c).arrAt 4 cfg4.N
      = Cert.Layers.mlp1 (V c main_v68) (V c main_v57) (V c main_arg9) b :=
  (dat4 (F := Ideal) V c).arrAt_eq_of_cover 4 _ (fun t _ => flushed_eq V c b hb t) cover

end Cert.KernelIdeal.Region4

end
-- ==== Proof.Region5.lean ====
/-
  The third normalisation region of the network: its output array after the twenty grid points.

  The region works on blocks of 5000 node rows. At grid point t it reads rows 5000·t … 5000·t + 4999 of the
  input array and the whole of four one-row arrays (mean, variance, gain, offset), and writes
      ((x - mean) · (variance + ε)^(-1/2)) · gain + offset
  to the same rows of the output array. The twenty blocks tile the 100000 rows, so the output array ends holding
  the normalisation of the whole input array, spelt over all rows at once (`Cert.Layers.bnorm`), whenever the four
  one-row arrays are vectors of 128 lanes laid out as one row.

  Steps: the block indices of the six windows at every grid point (decided over the twenty points); each input
  block read off its array; one entry of the body's result against the same entry of the whole-array function; the
  block a point writes back is that function's block; the blocks cover the array.
-/
import proofs.«125571_j31628139167863_1_alg».proof.Proof.Gen.KernelIdeal.Frame
import proofs.«125571_j31628139167863_1_alg».proof.Proof.Layers
import proofs.«125571_j31628139167863_1_alg».proof.Proof.NormRead
import Idealize.ShloMosaic.Lib.ValueLayout
import Idealize.ShloMosaic.Lib.ValueIdx
import Idealize.ShloMosaic.Lib.Pipeline.Value

noncomputable section

namespace Cert.KernelIdeal.Region5

open Cert.KernelIdeal Cert.KernelIdeal.Gen Idealize.ShloMosaic Idealize.ShloMosaic.ValueIdx Idealize.ShloMosaic.TcCoe Idealize.SL.Sem
open Idealize.ShloMosaic.Pipeline (Dat)
open Cert.NormRead

variable (V : (c : Dev nD) → (b : Ref sig .tc) → Buf (Elt Ideal) ((c : Thread nD τ).loc b))

theorem hz : (![0, 0] : Fin 2 → Nat) = fun _ => 0 := funext fun a => by fin_cases a <;> rfl

/-! ## The block indices at the twenty grid points -/

/-- The two row windows (input rows, output rows) are at block `(t, 0)` at point `t`; the four one-row windows stay
    at block `(0, 0)`. -/
theorem idx_facts : ∀ t : Fin cfg5.N,
    win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-! ## The input blocks, read off their arrays -/

/-- The mean window's block at every point is its whole one-row array. -/
theorem row1 (c : Dev nD) (t : Fin cfg5.N) : (iblk5 V c 1 t : Vec Ideal S1x128 .f32) = V c main_v81 := by
  obtain ⟨-, -, -, -, e0, e1, -⟩ := idx_facts t
  funext z
  show V c main_v81 (((cfg5.win 1).blk t).view.emb z) = V c main_v81 z
  refine congrArg _ (funext fun a => Fin.ext ?_)
  match a with
  | ⟨0, _⟩ => show win5_1.index t (0 : Fin 2) * 1 + 1 * (z 0).val = (z 0).val; rw [e0]; omega
  | ⟨1, _⟩ => show win5_1.index t (1 : Fin 2) * 128 + 1 * (z 1).val = (z 1).val; rw [e1]; omega

/-- The variance window's block at every point is its whole one-row array. -/
theorem row2 (c : Dev nD) (t : Fin cfg5.N) : (iblk5 V c 2 t : Vec Ideal S1x128 .f32) = V c main_v82 := by
  obtain ⟨-, -, -, -, -, -, e0, e1, -⟩ := idx_facts t
  funext z
  show V c main_v82 (((cfg5.win 2).blk t).view.emb z) = V c main_v82 z
  refine congrArg _ (funext fun a => Fin.ext ?_)
  match a with
  | ⟨0, _⟩ => show win5_2.index t (0 : Fin 2) * 1 + 1 * (z 0).val = (z 0).val; rw [e0]; omega
  | ⟨1, _⟩ => show win5_2.index t (1 : Fin 2) * 128 + 1 * (z 1).val = (z 1).val; rw [e1]; omega

/-- The gain window's block at every point is its whole one-row array. -/
theorem row3 (c : Dev nD) (t : Fin cfg5.N) : (iblk5 V c 3 t : Vec Ideal S1x128 .f32) = V c main_v83 := by
  obtain ⟨-, -, -, -, -, -, -, -, e0, e1, -⟩ := idx_facts t
  funext z
  show V c main_v83 (((cfg5.win 3).blk t).view.emb z) = V c main_v83 z
  refine congrArg _ (funext fun a => Fin.ext ?_)
  match a with
  | ⟨0, _⟩ => show win5_3.index t (0 : Fin 2) * 1 + 1 * (z 0).val = (z 0).val; rw [e0]; omega
  | ⟨1, _⟩ => show win5_3.index t (1 : Fin 2) * 128 + 1 * (z 1).val = (z 1).val; rw [e1]; omega

/-- The offset window's block at every point is its whole one-row array. -/
theorem row4 (c : Dev nD) (t : Fin cfg5.N) : (iblk5 V c 4 t : Vec Ideal S1x128 .f32) = V c main_v84 := by
  obtain ⟨-, -, -, -, -, -, -, -, -, -, e0, e1⟩ := idx_facts t
  funext z
  show V c main_v84 (((cfg5.win 4).blk t).view.emb z) = V c main_v84 z
  refine congrArg _ (funext fun a => Fin.ext ?_)
  match a with
  | ⟨0, _⟩ => show win5_4.index t (0 : Fin 2) * 1 + 1 * (z 0).val = (z 0).val; rw [e0]; omega
  | ⟨1, _⟩ => show win5_4.index t (1 : Fin 2) * 128 + 1 * (z 1).val = (z 1).val; rw [e1]; omega

/-- The input rows' block at point `t` sits where the output's block sits: an entry of it is the input array's
    entry at the place the output's block puts that entry. -/
theorem rows0 (c : Dev nD) (t : Fin cfg5.N) (y : S5000x128.Idx) :
    (iblk5 V c 0 t : Vec Ideal S5000x128 .f32) y = V c main_v70 (((cfg5.win 5).blk t).view.emb y) := by
  obtain ⟨e0, e1, e2, e3, -⟩ := idx_facts t
  show V c main_v70 (((cfg5.win 0).blk t).view.emb y) = V c main_v70 (((cfg5.win 5).blk t).view.emb y)
  refine congrArg _ (funext fun a => Fin.ext ?_)
  match a with
  | ⟨0, _⟩ => show win5_0.index t (0 : Fin 2) * 5000 + 1 * (y 0).val = win5_5.index t (0 : Fin 2) * 5000 + 1 * (y 0).val; rw [e0, e2]
  | ⟨1, _⟩ => show win5_0.index t (1 : Fin 2) * 128 + 1 * (y 1).val = win5_5.index t (1 : Fin 2) * 128 + 1 * (y 1).val; rw [e1, e3]

/-- The lane of an entry of the output's block is the lane of its place in the array. -/
theorem lane5 (t : Fin cfg5.N) (y : S5000x128.Idx) : ((((cfg5.win 5).blk t).view.emb y) 1).val = (y 1).val := by
  obtain ⟨-, -, -, e3, -⟩ := idx_facts t
  show win5_5.index t (1 : Fin 2) * 128 + 1 * (y 1).val = (y 1).val
  rw [e3]; omega

/-! ## One entry of the body's result -/

/-- The body's result at `(r, q)`, from the loaded blocks: the rows' entry and the four one-row blocks at lane `q`
    (the body loads the rows, then the variance row, the mean row, the gain row and the offset row). -/
theorem pay_apply (x0 : Vec Ideal S5000x128 .f32) (rv rm rg rb : Vec Ideal S1x128 .f32) (r : Fin 5000) (q : Fin 128) :
    k5_pay1 x0 rv rm rg rb (ix2 r q)
      = normAt (x0 (ix2 r q)) (rm (ix2 (0 : Fin 1) q)) (rv (ix2 (0 : Fin 1) q)) (rg (ix2 (0 : Fin 1) q))
          (rb (ix2 (0 : Fin 1) q)) (Ideal.ofBits .f32 0x3727C5AC#32) :=
  block_norm_apply (R := 5000) (N := 128) x0 rv rm rg rb _ _ _ _ r q

/-- An entry of the body's result is the whole-array normalisation's entry at any place of the array that holds
    the same input entry in the same lane, when the four one-row blocks are the four vectors laid out as one row. -/
theorem point_eq (h : FVec Ideal S100000x128 .f32) (mean var g be : FVec Ideal S128 .f32)
    (x0 : Vec Ideal S5000x128 .f32) (rv rm rg rb : Vec Ideal S1x128 .f32)
    (hrm : rm = shapeCast S1x128 mean Facts₀.shapeCasts_S128_S1x128)
    (hrv : rv = shapeCast S1x128 var Facts₀.shapeCasts_S128_S1x128)
    (hrg : rg = shapeCast S1x128 g Facts₀.shapeCasts_S128_S1x128)
    (hrb : rb = shapeCast S1x128 be Facts₀.shapeCasts_S128_S1x128)
    (y : S5000x128.Idx) (i : S100000x128.Idx) (hx : x0 y = h i) (hq : (i 1).val = (y 1).val) :
    k5_pay1 x0 rv rm rg rb y = Cert.Layers.bnorm h mean var g be i := by
  obtain ⟨r, q, rfl⟩ : ∃ (r : Fin 5000) (q : Fin 128), y = ix2 r q := ⟨y 0, y 1, eq_ix2 y⟩
  obtain ⟨r', q', rfl⟩ : ∃ (r' : Fin 100000) (q' : Fin 128), i = ix2 r' q' := ⟨i 0, i 1, eq_ix2 i⟩
  obtain rfl : q' = q := Fin.ext hq
  rw [pay_apply, bnorm_apply, hx, hrm, hrv, hrg, hrb, shapeCast_a_1a_apply, shapeCast_a_1a_apply,
    shapeCast_a_1a_apply, shapeCast_a_1a_apply]

/-! ## What a point writes back, and the array after the last point -/

/-- What grid point `t` writes back to the output array is block `t` of the whole-array normalisation of the
    input array as the region finds it. -/
theorem flushed_eq (c : Dev nD) (mean var g be : FVec Ideal S128 .f32)
    (hm : V c main_v81 = shapeCast S1x128 mean Facts₀.shapeCasts_S128_S1x128)
    (hv : V c main_v82 = shapeCast S1x128 var Facts₀.shapeCasts_S128_S1x128)
    (hg : V c main_v83 = shapeCast S1x128 g Facts₀.shapeCasts_S128_S1x128)
    (hbe : V c main_v84 = shapeCast S1x128 be Facts₀.shapeCasts_S128_S1x128) (t : Fin cfg5.N) :
    (dat5 (F := Ideal) V c).flushed 5 t
      = ((cfg5.win 5).blk t).view.read (Elt Ideal) (Cert.Layers.bnorm (V c main_v70) mean var g be) := by
  show (cfg5.win 5).cut (grid5.coords t) ((dat5 V c).after 5 t) = _
  rw [after5_5]
  unfold out5_5
  rw [View.canon_unit_zero hz]
  simp only [View.ld_unit_zero (S := S5000x128) hz, View.ld_unit_zero (S := S1x128) hz]
  funext y
  show k5_pay1 (iblk5 V c 0 t) (iblk5 V c 2 t) (iblk5 V c 1 t) (iblk5 V c 3 t) (iblk5 V c 4 t) y
    = Cert.Layers.bnorm (V c main_v70) mean var g be (((cfg5.win 5).blk t).view.emb y)
  exact point_eq (V c main_v70) mean var g be (iblk5 V c 0 t) (iblk5 V c 2 t) (iblk5 V c 1 t) (iblk5 V c 3 t) (iblk5 V c 4 t)
    ((row1 V c t).trans hm) ((row2 V c t).trans hv) ((row3 V c t).trans hg) ((row4 V c t).trans hbe)
    y (((cfg5.win 5).blk t).view.emb y) (rows0 V c t y) (lane5 t y)

/-- An entry of the array is in point `t`'s block iff each coordinate is in the block's range on its axis. -/
theorem mem_blk (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v85).slice (win5_5.rect t)).set ↔ _
  rw [View.set_slice_whole, Rect.mem_set_unit]
  exact Iff.rfl

/-- Every entry of the array is in the block of the point its row falls to: row `i` belongs to point `i / 5000`. -/
theorem cover (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  let t : Fin cfg5.N := ⟨(i 0).val / 5000, by rw [hN]; omega⟩
  have ht : t.val = (i 0).val / 5000 := rfl
  obtain ⟨-, -, e2, e3, -⟩ := idx_facts t
  refine ⟨t, flush5_5 t, ?_⟩
  rw [mem_blk]
  intro a
  match a with
  | ⟨0, _⟩ => show win5_5.index t (0 : Fin 2) * 5000 ≤ (i 0).val ∧ (i 0).val < win5_5.index t (0 : Fin 2) * 5000 + 5000; rw [e2, ht]; omega
  | ⟨1, _⟩ => show win5_5.index t (1 : Fin 2) * 128 ≤ (i 1).val ∧ (i 1).val < win5_5.index t (1 : Fin 2) * 128 + 128; rw [e3]; omega

/-- THE REGION'S OUTPUT: after the twenty grid points the output array holds the normalisation of the whole input
    array, whenever the four one-row arrays the region reads are vectors of 128 lanes laid out as one row. -/
theorem out (c : Dev nD) (mean var g be : FVec Ideal S128 .f32)
    (hm : V c main_v81 = shapeCast S1x128 mean Facts₀.shapeCasts_S128_S1x128)
    (hv : V c main_v82 = shapeCast S1x128 var Facts₀.shapeCasts_S128_S1x128)
    (hg : V c main_v83 = shapeCast S1x128 g Facts₀.shapeCasts_S128_S1x128)
    (hbe : V c main_v84 = shapeCast S1x128 be Facts₀.shapeCasts_S128_S1x128) :
    (dat5 (F := Ideal) V c).arrAt 5 cfg5.N = Cert.Layers.bnorm (V c main_v70) mean var g be :=
  (dat5 (F := Ideal) V c).arrAt_eq_of_cover 5 (Cert.Layers.bnorm (V c main_v70) mean var g be)
    (fun t _ => flushed_eq V c mean var g be hm hv hg hbe t) cover

end Cert.KernelIdeal.Region5

end
-- ==== Proof.Stages.lean ====
/-
  The kernel program's fold, read segment by segment against the reference's stages.

  The fold `W0 … W13` gives every buffer's contents at each boundary between a stretch of host operations and a
  kernel region. Reading it forwards: a stretch applies the host's own operations, which are the reference's, to
  what the previous boundary holds (the aggregate; the batch mean and variance, recast as one row for the kernel;
  the biases, gains and offsets recast as one row); a region leaves in its output array the whole-array perceptron
  or normalisation of its window arrays (Region0 … Region5). By induction along the thirteen segments each region's
  output is the reference's stage of the same round, and the returned array is the reference's last stage, as a
  function of the launch memory's argument arrays.
-/
import proofs.«125571_j31628139167863_1_alg».proof.Proof.Gen.KernelIdeal.Frame
import proofs.«125571_j31628139167863_1_alg».proof.Proof.Layers
import proofs.«125571_j31628139167863_1_alg».proof.Proof.RefRounds
import proofs.«125571_j31628139167863_1_alg».proof.Proof.Kept
import proofs.«125571_j31628139167863_1_alg».proof.Proof.Region0
import proofs.«125571_j31628139167863_1_alg».proof.Proof.Region1
import proofs.«125571_j31628139167863_1_alg».proof.Proof.Region2
import proofs.«125571_j31628139167863_1_alg».proof.Proof.Region3
import proofs.«125571_j31628139167863_1_alg».proof.Proof.Region4
import proofs.«125571_j31628139167863_1_alg».proof.Proof.Region5
import Idealize.ShloMosaic.Lib.StableHlo.Run

set_option maxRecDepth 16384

noncomputable section

open Cert.KernelIdeal Cert.KernelIdeal.Gen
open Idealize.ShloMosaic Idealize.ShloMosaic.TcCoe Idealize.SL.Sem Idealize.ShloMosaic.StableHlo
namespace Cert.KernelIdeal.Stages

variable (m : (ℓ : Loc nD τ sig) → Buf (Elt Ideal) ℓ) (ρ : Dev nD → PrngReg) (c : Dev nD)

set_option maxHeartbeats 4000000 in
/-- The first aggregate: the neighbour sums of the input features plus the features themselves. -/
theorem agg0 : W1 m ρ c (Proc.devRef .tc main_v10) = (Cert.ReferenceIdeal.ReadP.val_main_v10 (F := Ideal) (m ((c : Thread nD τ).loc main_arg0)) (m ((c : Thread nD τ).loc main_arg17)) (m ((c : Thread nD τ).loc main_arg18))) := by
  show StableHlo.after hostOps0 (W0 m ρ c) (Proc.devRef .tc main_v10) = _
  after_results_simp
  rfl

set_option maxHeartbeats 4000000 in
/-- The first layer's bias of round 0, laid out as one row. -/
theorem bias0a : W1 m ρ c (Proc.devRef .tc main_v11) = shapeCast S1x128 (m ((c : Thread nD τ).loc main_arg2)) Facts₀.shapeCasts_S128_S1x128 := by
  show StableHlo.after hostOps0 (W0 m ρ c) (Proc.devRef .tc main_v11) = _
  after_results_simp
  rfl

set_option maxHeartbeats 4000000 in
/-- The second layer's bias of round 0, laid out as one row. -/
theorem bias0b : W1 m ρ c (Proc.devRef .tc main_v12) = shapeCast S1x128 (m ((c : Thread nD τ).loc main_arg4)) Facts₀.shapeCasts_S128_S1x128 := by
  show StableHlo.after hostOps0 (W0 m ρ c) (Proc.devRef .tc main_v12) = _
  after_results_simp
  rfl

set_option maxHeartbeats 4000000 in
/-- Round 0 before normalisation: what the first kernel region leaves is the reference's stage. -/
theorem pre0 : W2 m ρ c (Proc.devRef .tc main_v13) = (Cert.ReferenceIdeal.ReadP.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg17)) (m ((c : Thread nD τ).loc main_arg18))) :=
  calc W2 m ρ c (Proc.devRef .tc main_v13)
    _ = (dat0 (F := Ideal) (V1 m ρ) c).arrAt 6 cfg0.N := W2_arr m ρ c 6
    _ = Cert.Layers.mlp2 (V1 m ρ c main_v10) (V1 m ρ c main_arg0) (V1 m ρ c main_arg1) (m ((c : Thread nD τ).loc main_arg2)) (V1 m ρ c main_arg3) (m ((c : Thread nD τ).loc main_arg4)) :=
        Cert.KernelIdeal.Region0.out (V1 m ρ) c (m ((c : Thread nD τ).loc main_arg2)) (m ((c : Thread nD τ).loc main_arg4)) (bias0a m ρ c) (bias0b m ρ c)
    _ = Cert.Layers.mlp2 (Cert.ReferenceIdeal.ReadP.val_main_v10 (F := Ideal) (m ((c : Thread nD τ).loc main_arg0)) (m ((c : Thread nD τ).loc main_arg17)) (m ((c : Thread nD τ).loc main_arg18))) (m ((c : Thread nD τ).loc main_arg0)) (m ((c : Thread nD τ).loc main_arg1)) (m ((c : Thread nD τ).loc main_arg2)) (m ((c : Thread nD τ).loc main_arg3)) (m ((c : Thread nD τ).loc main_arg4)) := by
        rw [show V1 m ρ c main_v10 = (Cert.ReferenceIdeal.ReadP.val_main_v10 (F := Ideal) (m ((c : Thread nD τ).loc main_arg0)) (m ((c : Thread nD τ).loc main_arg17)) (m ((c : Thread nD τ).loc main_arg18))) from agg0 m ρ c,
          show V1 m ρ c main_arg0 = (m ((c : Thread nD τ).loc main_arg0)) from Kept.W1_main_arg0 m ρ c,
          show V1 m ρ c main_arg1 = (m ((c : Thread nD τ).loc main_arg1)) from Kept.W1_main_arg1 m ρ c,
          show V1 m ρ c main_arg3 = (m ((c : Thread nD τ).loc main_arg3)) from Kept.W1_main_arg3 m ρ c]
    _ = (Cert.ReferenceIdeal.ReadP.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg17)) (m ((c : Thread nD τ).loc main_arg18))) := (Cert.ReferenceIdeal.Rounds.pre0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg17)) (m ((c : Thread nD τ).loc main_arg18))).symm

set_option maxHeartbeats 4000000 in
/-- Round 0's batch mean, as one row. -/
theorem mean0 : W3 m ρ c (Proc.devRef .tc main_v24) = shapeCast S1x128 (Cert.ReferenceIdeal.ReadP.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg17)) (m ((c : Thread nD τ).loc main_arg18))) Facts₀.shapeCasts_S128_S1x128 := by
  show StableHlo.after hostOps1 (W2 m ρ c) (Proc.devRef .tc main_v24) = _
  after_results_simp
  rw [pre0 m ρ c]
  rfl

set_option maxHeartbeats 4000000 in
/-- Round 0's batch variance, as one row. -/
theorem var0 : W3 m ρ c (Proc.devRef .tc main_v25) = shapeCast S1x128 (Cert.ReferenceIdeal.ReadP.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg17)) (m ((c : Thread nD τ).loc main_arg18))) Facts₀.shapeCasts_S128_S1x128 := by
  show StableHlo.after hostOps1 (W2 m ρ c) (Proc.devRef .tc main_v25) = _
  after_results_simp
  rw [pre0 m ρ c]
  rfl

set_option maxHeartbeats 4000000 in
/-- Round 0's gain, as one row. -/
theorem gain0 : W3 m ρ c (Proc.devRef .tc main_v26) = shapeCast S1x128 (m ((c : Thread nD τ).loc main_arg11)) Facts₀.shapeCasts_S128_S1x128 := by
  show StableHlo.after hostOps1 (W2 m ρ c) (Proc.devRef .tc main_v26) = _
  after_results_simp
  rw [Kept.W2_main_arg11 m ρ c]
  rfl

set_option maxHeartbeats 4000000 in
/-- Round 0's offset, as one row. -/
theorem offset0 : W3 m ρ c (Proc.devRef .tc main_v27) = shapeCast S1x128 (m ((c : Thread nD τ).loc main_arg12)) Facts₀.shapeCasts_S128_S1x128 := by
  show StableHlo.after hostOps1 (W2 m ρ c) (Proc.devRef .tc main_v27) = _
  after_results_simp
  rw [Kept.W2_main_arg12 m ρ c]
  rfl

set_option maxHeartbeats 4000000 in
/-- Round 0 normalised: what the second kernel region leaves is the reference's stage. -/
theorem norm0 : W4 m ρ c (Proc.devRef .tc main_v28) = (Cert.ReferenceIdeal.ReadP.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg17)) (m ((c : Thread nD τ).loc main_arg18))) :=
  calc W4 m ρ c (Proc.devRef .tc main_v28)
    _ = (dat1 (F := Ideal) (V3 m ρ) c).arrAt 5 cfg1.N := W4_arr m ρ c 5
    _ = Cert.Layers.bnorm (V3 m ρ c main_v13) (Cert.ReferenceIdeal.ReadP.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg17)) (m ((c : Thread nD τ).loc main_arg18))) (Cert.ReferenceIdeal.ReadP.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg17)) (m ((c : Thread nD τ).loc main_arg18))) (m ((c : Thread nD τ).loc main_arg11)) (m ((c : Thread nD τ).loc main_arg12)) :=
        Cert.KernelIdeal.Region1.out (V3 m ρ) c (Cert.ReferenceIdeal.ReadP.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg17)) (m ((c : Thread nD τ).loc main_arg18))) (Cert.ReferenceIdeal.ReadP.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg17)) (m ((c : Thread nD τ).loc main_arg18))) (m ((c : Thread nD τ).loc main_arg11)) (m ((c : Thread nD τ).loc main_arg12)) (mean0 m ρ c) (var0 m ρ c) (gain0 m ρ c) (offset0 m ρ c)
    _ = Cert.Layers.bnorm (Cert.ReferenceIdeal.ReadP.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg17)) (m ((c : Thread nD τ).loc main_arg18))) (Cert.ReferenceIdeal.ReadP.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg17)) (m ((c : Thread nD τ).loc main_arg18))) (Cert.ReferenceIdeal.ReadP.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg17)) (m ((c : Thread nD τ).loc main_arg18))) (m ((c : Thread nD τ).loc main_arg11)) (m ((c : Thread nD τ).loc main_arg12)) := by
        rw [show V3 m ρ c main_v13 = (Cert.ReferenceIdeal.ReadP.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg17)) (m ((c : Thread nD τ).loc main_arg18))) from (Kept.W3_main_v13 m ρ c).trans (pre0 m ρ c)]
    _ = (Cert.ReferenceIdeal.ReadP.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg17)) (m ((c : Thread nD τ).loc main_arg18))) := (Cert.ReferenceIdeal.Rounds.norm0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg17)) (m ((c : Thread nD τ).loc main_arg18))).symm

set_option maxHeartbeats 4000000 in
/-- The second aggregate. -/
theorem agg1 : W5 m ρ c (Proc.devRef .tc main_v39) = (Cert.ReferenceIdeal.ReadP.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg17)) (m ((c : Thread nD τ).loc main_arg18))) := by
  show StableHlo.after hostOps2 (W4 m ρ c) (Proc.devRef .tc main_v39) = _
  after_results_simp
  rw [norm0 m ρ c, Kept.W4_main_arg17 m ρ c, Kept.W4_main_arg18 m ρ c]
  rfl

set_option maxHeartbeats 4000000 in
/-- The first layer's bias of round 1, as one row. -/
theorem bias1a : W5 m ρ c (Proc.devRef .tc main_v40) = shapeCast S1x128 (m ((c : Thread nD τ).loc main_arg6)) Facts₀.shapeCasts_S128_S1x128 := by
  show StableHlo.after hostOps2 (W4 m ρ c) (Proc.devRef .tc main_v40) = _
  after_results_simp
  rw [Kept.W4_main_arg6 m ρ c]
  rfl

set_option maxHeartbeats 4000000 in
/-- The second layer's bias of round 1, as one row. -/
theorem bias1b : W5 m ρ c (Proc.devRef .tc main_v41) = shapeCast S1x128 (m ((c : Thread nD τ).loc main_arg8)) Facts₀.shapeCasts_S128_S1x128 := by
  show StableHlo.after hostOps2 (W4 m ρ c) (Proc.devRef .tc main_v41) = _
  after_results_simp
  rw [Kept.W4_main_arg8 m ρ c]
  rfl

set_option maxHeartbeats 4000000 in
/-- Round 1 before normalisation. -/
theorem pre1 : W6 m ρ c (Proc.devRef .tc main_v42) = (Cert.ReferenceIdeal.ReadP.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg17)) (m ((c : Thread nD τ).loc main_arg18))) :=
  calc W6 m ρ c (Proc.devRef .tc main_v42)
    _ = (dat2 (F := Ideal) (V5 m ρ) c).arrAt 6 cfg2.N := W6_arr m ρ c 6
    _ = Cert.Layers.mlp2 (V5 m ρ c main_v39) (V5 m ρ c main_v28) (V5 m ρ c main_arg5) (m ((c : Thread nD τ).loc main_arg6)) (V5 m ρ c main_arg7) (m ((c : Thread nD τ).loc main_arg8)) :=
        Cert.KernelIdeal.Region2.out (V5 m ρ) c (m ((c : Thread nD τ).loc main_arg6)) (m ((c : Thread nD τ).loc main_arg8)) (bias1a m ρ c) (bias1b m ρ c)
    _ = Cert.Layers.mlp2 (Cert.ReferenceIdeal.ReadP.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg17)) (m ((c : Thread nD τ).loc main_arg18))) (Cert.ReferenceIdeal.ReadP.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg17)) (m ((c : Thread nD τ).loc main_arg18))) (m ((c : Thread nD τ).loc main_arg5)) (m ((c : Thread nD τ).loc main_arg6)) (m ((c : Thread nD τ).loc main_arg7)) (m ((c : Thread nD τ).loc main_arg8)) := by
        rw [show V5 m ρ c main_v39 = (Cert.ReferenceIdeal.ReadP.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg17)) (m ((c : Thread nD τ).loc main_arg18))) from agg1 m ρ c,
          show V5 m ρ c main_v28 = (Cert.ReferenceIdeal.ReadP.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg17)) (m ((c : Thread nD τ).loc main_arg18))) from (Kept.W5_main_v28 m ρ c).trans (norm0 m ρ c),
          show V5 m ρ c main_arg5 = (m ((c : Thread nD τ).loc main_arg5)) from Kept.W5_main_arg5 m ρ c,
          show V5 m ρ c main_arg7 = (m ((c : Thread nD τ).loc main_arg7)) from Kept.W5_main_arg7 m ρ c]
    _ = (Cert.ReferenceIdeal.ReadP.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg17)) (m ((c : Thread nD τ).loc main_arg18))) := (Cert.ReferenceIdeal.Rounds.pre1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg17)) (m ((c : Thread nD τ).loc main_arg18))).symm

set_option maxHeartbeats 4000000 in
/-- Round 1's batch mean, as one row. -/
theorem mean1 : W7 m ρ c (Proc.devRef .tc main_v53) = shapeCast S1x128 (Cert.ReferenceIdeal.ReadP.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg17)) (m ((c : Thread nD τ).loc main_arg18))) Facts₀.shapeCasts_S128_S1x128 := by
  show StableHlo.after hostOps3 (W6 m ρ c) (Proc.devRef .tc main_v53) = _
  after_results_simp
  rw [pre1 m ρ c]
  rfl

set_option maxHeartbeats 4000000 in
/-- Round 1's batch variance, as one row. -/
theorem var1 : W7 m ρ c (Proc.devRef .tc main_v54) = shapeCast S1x128 (Cert.ReferenceIdeal.ReadP.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg17)) (m ((c : Thread nD τ).loc main_arg18))) Facts₀.shapeCasts_S128_S1x128 := by
  show StableHlo.after hostOps3 (W6 m ρ c) (Proc.devRef .tc main_v54) = _
  after_results_simp
  rw [pre1 m ρ c]
  rfl

set_option maxHeartbeats 4000000 in
/-- Round 1's gain, as one row. -/
theorem gain1 : W7 m ρ c (Proc.devRef .tc main_v55) = shapeCast S1x128 (m ((c : Thread nD τ).loc main_arg13)) Facts₀.shapeCasts_S128_S1x128 := by
  show StableHlo.after hostOps3 (W6 m ρ c) (Proc.devRef .tc main_v55) = _
  after_results_simp
  rw [Kept.W6_main_arg13 m ρ c]
  rfl

set_option maxHeartbeats 4000000 in
/-- Round 1's offset, as one row. -/
theorem offset1 : W7 m ρ c (Proc.devRef .tc main_v56) = shapeCast S1x128 (m ((c : Thread nD τ).loc main_arg14)) Facts₀.shapeCasts_S128_S1x128 := by
  show StableHlo.after hostOps3 (W6 m ρ c) (Proc.devRef .tc main_v56) = _
  after_results_simp
  rw [Kept.W6_main_arg14 m ρ c]
  rfl

set_option maxHeartbeats 4000000 in
/-- Round 1 normalised. -/
theorem norm1 : W8 m ρ c (Proc.devRef .tc main_v57) = (Cert.ReferenceIdeal.ReadP.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) :=
  calc W8 m ρ c (Proc.devRef .tc main_v57)
    _ = (dat3 (F := Ideal) (V7 m ρ) c).arrAt 5 cfg3.N := W8_arr m ρ c 5
    _ = Cert.Layers.bnorm (V7 m ρ c main_v42) (Cert.ReferenceIdeal.ReadP.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg17)) (m ((c : Thread nD τ).loc main_arg18))) (Cert.ReferenceIdeal.ReadP.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg17)) (m ((c : Thread nD τ).loc main_arg18))) (m ((c : Thread nD τ).loc main_arg13)) (m ((c : Thread nD τ).loc main_arg14)) :=
        Cert.KernelIdeal.Region3.out (V7 m ρ) c (Cert.ReferenceIdeal.ReadP.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg17)) (m ((c : Thread nD τ).loc main_arg18))) (Cert.ReferenceIdeal.ReadP.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg17)) (m ((c : Thread nD τ).loc main_arg18))) (m ((c : Thread nD τ).loc main_arg13)) (m ((c : Thread nD τ).loc main_arg14)) (mean1 m ρ c) (var1 m ρ c) (gain1 m ρ c) (offset1 m ρ c)
    _ = Cert.Layers.bnorm (Cert.ReferenceIdeal.ReadP.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg17)) (m ((c : Thread nD τ).loc main_arg18))) (Cert.ReferenceIdeal.ReadP.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg17)) (m ((c : Thread nD τ).loc main_arg18))) (Cert.ReferenceIdeal.ReadP.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg17)) (m ((c : Thread nD τ).loc main_arg18))) (m ((c : Thread nD τ).loc main_arg13)) (m ((c : Thread nD τ).loc main_arg14)) := by
        rw [show V7 m ρ c main_v42 = (Cert.ReferenceIdeal.ReadP.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg17)) (m ((c : Thread nD τ).loc main_arg18))) from (Kept.W7_main_v42 m ρ c).trans (pre1 m ρ c)]
    _ = (Cert.ReferenceIdeal.ReadP.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) := (Cert.ReferenceIdeal.Rounds.norm1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))).symm

set_option maxHeartbeats 4000000 in
/-- The third aggregate. -/
theorem agg2 : W9 m ρ c (Proc.devRef .tc main_v68) = (Cert.ReferenceIdeal.ReadP.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) := by
  show StableHlo.after hostOps4 (W8 m ρ c) (Proc.devRef .tc main_v68) = _
  after_results_simp
  rw [norm1 m ρ c, Kept.W8_main_arg17 m ρ c, Kept.W8_main_arg18 m ρ c]
  rfl

set_option maxHeartbeats 4000000 in
/-- Round 2's bias, as one row. -/
theorem bias2 : W9 m ρ c (Proc.devRef .tc main_v69) = shapeCast S1x128 (m ((c : Thread nD τ).loc main_arg10)) Facts₀.shapeCasts_S128_S1x128 := by
  show StableHlo.after hostOps4 (W8 m ρ c) (Proc.devRef .tc main_v69) = _
  after_results_simp
  rw [Kept.W8_main_arg10 m ρ c]
  rfl

set_option maxHeartbeats 4000000 in
/-- Round 2 before normalisation. -/
theorem pre2 : W10 m ρ c (Proc.devRef .tc main_v70) = (Cert.ReferenceIdeal.ReadP.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) :=
  calc W10 m ρ c (Proc.devRef .tc main_v70)
    _ = (dat4 (F := Ideal) (V9 m ρ) c).arrAt 4 cfg4.N := W10_arr m ρ c 4
    _ = Cert.Layers.mlp1 (V9 m ρ c main_v68) (V9 m ρ c main_v57) (V9 m ρ c main_arg9) (m ((c : Thread nD τ).loc main_arg10)) :=
        Cert.KernelIdeal.Region4.out (V9 m ρ) c (m ((c : Thread nD τ).loc main_arg10)) (bias2 m ρ c)
    _ = Cert.Layers.mlp1 (Cert.ReferenceIdeal.ReadP.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) (Cert.ReferenceIdeal.ReadP.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) (m ((c : Thread nD τ).loc main_arg9)) (m ((c : Thread nD τ).loc main_arg10)) := by
        rw [show V9 m ρ c main_v68 = (Cert.ReferenceIdeal.ReadP.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) from agg2 m ρ c,
          show V9 m ρ c main_v57 = (Cert.ReferenceIdeal.ReadP.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) from (Kept.W9_main_v57 m ρ c).trans (norm1 m ρ c),
          show V9 m ρ c main_arg9 = (m ((c : Thread nD τ).loc main_arg9)) from Kept.W9_main_arg9 m ρ c]
    _ = (Cert.ReferenceIdeal.ReadP.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) := (Cert.ReferenceIdeal.Rounds.pre2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))).symm

set_option maxHeartbeats 4000000 in
/-- Round 2's batch mean, as one row. -/
theorem mean2 : W11 m ρ c (Proc.devRef .tc main_v81) = shapeCast S1x128 (Cert.ReferenceIdeal.ReadP.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) Facts₀.shapeCasts_S128_S1x128 := by
  show StableHlo.after hostOps5 (W10 m ρ c) (Proc.devRef .tc main_v81) = _
  after_results_simp
  rw [pre2 m ρ c]
  rfl

set_option maxHeartbeats 4000000 in
/-- Round 2's batch variance, as one row. -/
theorem var2 : W11 m ρ c (Proc.devRef .tc main_v82) = shapeCast S1x128 (Cert.ReferenceIdeal.ReadP.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) Facts₀.shapeCasts_S128_S1x128 := by
  show StableHlo.after hostOps5 (W10 m ρ c) (Proc.devRef .tc main_v82) = _
  after_results_simp
  rw [pre2 m ρ c]
  rfl

set_option maxHeartbeats 4000000 in
/-- Round 2's gain, as one row. -/
theorem gain2 : W11 m ρ c (Proc.devRef .tc main_v83) = shapeCast S1x128 (m ((c : Thread nD τ).loc main_arg15)) Facts₀.shapeCasts_S128_S1x128 := by
  show StableHlo.after hostOps5 (W10 m ρ c) (Proc.devRef .tc main_v83) = _
  after_results_simp
  rw [Kept.W10_main_arg15 m ρ c]
  rfl

set_option maxHeartbeats 4000000 in
/-- Round 2's offset, as one row. -/
theorem offset2 : W11 m ρ c (Proc.devRef .tc main_v84) = shapeCast S1x128 (m ((c : Thread nD τ).loc main_arg16)) Facts₀.shapeCasts_S128_S1x128 := by
  show StableHlo.after hostOps5 (W10 m ρ c) (Proc.devRef .tc main_v84) = _
  after_results_simp
  rw [Kept.W10_main_arg16 m ρ c]
  rfl

set_option maxHeartbeats 4000000 in
/-- Round 2 normalised. -/
theorem norm2 : W12 m ρ c (Proc.devRef .tc main_v85) = (Cert.ReferenceIdeal.ReadP.val_main_v135 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) :=
  calc W12 m ρ c (Proc.devRef .tc main_v85)
    _ = (dat5 (F := Ideal) (V11 m ρ) c).arrAt 5 cfg5.N := W12_arr m ρ c 5
    _ = Cert.Layers.bnorm (V11 m ρ c main_v70) (Cert.ReferenceIdeal.ReadP.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) (Cert.ReferenceIdeal.ReadP.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) (m ((c : Thread nD τ).loc main_arg15)) (m ((c : Thread nD τ).loc main_arg16)) :=
        Cert.KernelIdeal.Region5.out (V11 m ρ) c (Cert.ReferenceIdeal.ReadP.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) (Cert.ReferenceIdeal.ReadP.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) (m ((c : Thread nD τ).loc main_arg15)) (m ((c : Thread nD τ).loc main_arg16)) (mean2 m ρ c) (var2 m ρ c) (gain2 m ρ c) (offset2 m ρ c)
    _ = Cert.Layers.bnorm (Cert.ReferenceIdeal.ReadP.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) (Cert.ReferenceIdeal.ReadP.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) (Cert.ReferenceIdeal.ReadP.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) (m ((c : Thread nD τ).loc main_arg15)) (m ((c : Thread nD τ).loc main_arg16)) := by
        rw [show V11 m ρ c main_v70 = (Cert.ReferenceIdeal.ReadP.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) from (Kept.W11_main_v70 m ρ c).trans (pre2 m ρ c)]
    _ = (Cert.ReferenceIdeal.ReadP.val_main_v135 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) := (Cert.ReferenceIdeal.Rounds.norm2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).symm

set_option maxHeartbeats 4000000 in
/-- The result: the mean over all nodes of the last round's features. -/
theorem pooled : W13 m ρ c (Proc.devRef .tc main_v88) = (Cert.ReferenceIdeal.ReadP.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) := by
  show StableHlo.after hostOps6 (W12 m ρ c) (Proc.devRef .tc main_v88) = _
  after_results_simp
  rw [norm2 m ρ c]
  rfl

end Cert.KernelIdeal.Stages

end
-- ==== Proof.lean ====
/-
  Three rounds of a graph network over 100000 nodes and 128 features, and the mean of the last round over the
  nodes: the kernel program against its reference, on the extended reals.

  Each round aggregates (the sum of a node's in-neighbours' rows plus its own row: a gather by `src` and an
  accumulating scatter by `dst`), applies a perceptron row by row and adds the round's input back, and normalises
  with the batch mean and the biased batch variance of the result, a gain and an offset. Both programs compute the
  aggregate, the statistics and the final mean with the same host operations. They differ in where the dense part
  runs: the reference applies matrix products, maxima with zero and the normalisation to all 100000 rows at once,
  the kernel program in six kernel regions, each over twenty blocks of 5000 rows.

  On the extended reals a change of float format is the identity, a matrix product accumulated into zeros is the
  plain sum of products, and a row of `x · W + b` depends on that row of `x` alone; the normalisation is
  entrywise. So a block of rows computed by a kernel body is that block of the whole-array function the reference
  applies (Region0 … Region5, over PerceptronRows and NormRead), and the blocks tile the array. No law of
  arithmetic beyond this is used: the two programs apply the same operations in the same order to the same
  numbers, and finiteness of the inputs is never needed.

  The kernel program's run leaves the result at the fold of its segments (KernelRun); reading that fold segment by
  segment gives, at each region's exit and after each stretch of host operations, the reference's stage of the
  same name (Stages over Kept, Layers and RefRounds); the reference's own run ends at its last stage (RefRun over
  RefRead). `preserves` has no conjunct: idealizing rewrote no operation of the kernel.
-/
import proofs.«125571_j31628139167863_1_alg».proof.Defs
import proofs.«125571_j31628139167863_1_alg».proof.Proof.Gen.Kernel
import proofs.«125571_j31628139167863_1_alg».proof.Proof.Gen.Kernel.Skeleton
import proofs.«125571_j31628139167863_1_alg».proof.Proof.Gen.Kernel.Launch
import proofs.«125571_j31628139167863_1_alg».proof.Proof.Gen.Kernel.Points
import proofs.«125571_j31628139167863_1_alg».proof.Proof.Gen.Kernel.Frame
import proofs.«125571_j31628139167863_1_alg».proof.Proof.Gen.KernelIdeal
import proofs.«125571_j31628139167863_1_alg».proof.Proof.Gen.KernelIdeal.Skeleton
import proofs.«125571_j31628139167863_1_alg».proof.Proof.Gen.KernelIdeal.Launch
import proofs.«125571_j31628139167863_1_alg».proof.Proof.Gen.KernelIdeal.Points
import proofs.«125571_j31628139167863_1_alg».proof.Proof.Gen.KernelIdeal.Frame
import proofs.«125571_j31628139167863_1_alg».proof.Proof.Gen.ReferenceIdeal
import proofs.«125571_j31628139167863_1_alg».proof.Proof.Gen.Pre_finite_inputs
import proofs.«125571_j31628139167863_1_alg».proof.Proof.KernelRun
import proofs.«125571_j31628139167863_1_alg».proof.Proof.Stages
import proofs.«125571_j31628139167863_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Idealizing rewrote nothing, so there is nothing to preserve. -/
theorem preserves : Cert.preserves_Kernel_KernelIdeal := trivial

/-- From memories that agree on the arguments both programs end with the same array: the kernel program's fold
    read at the returned buffer is the reference's last stage of the kernel's arguments, which are the reference's. -/
theorem algebraic : Cert.algebraic_KernelIdeal_ReferenceIdeal := by
  intro m ρ m' ρ' _ hagree
  refine ⟨fun c => Cert.KernelIdeal.Gen.W13 m ρ c (Proc.devRef .tc Cert.KernelIdeal.main_v88),
    Cert.KernelIdeal.Run.run_result (F := Ideal) m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5, h6, h7, h8, h9, h10, h11, h12, h13, h14, h15, h16, h17, h18⟩ := hagree c
  rw [h0, h1, h2, h3, h4, h5, h6, h7, h8, h9, h10, h11, h12, h13, h14, h15, h16, h17, h18]
  exact (Cert.KernelIdeal.Stages.pooled m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
